-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S800000 : Shape := ⟨1, ![800000]⟩
abbrev S64x4 : Shape := ⟨2, ![64, 4]⟩
abbrev S64 : Shape := ⟨1, ![64]⟩
abbrev S64x64 : Shape := ⟨2, ![64, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S128x64 : Shape := ⟨2, ![128, 64]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S1x128 .f32) (main_arg20 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x128 .f32 := Host.absf main_arg19
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S4x256 .f32) (main_arg16 : FVec F S4 .f32) (main_arg17 : FVec F S128x64 .f32) (main_arg18 : FVec F S128 .f32) (main_arg19 : FVec F S1x128 .f32) (main_arg20 : FVec F S1 .f32) (main_v63 : IVec S_ 1) (main_v67 : IVec S_ 1) : IVec S_ 1 :=
  let main_v68 : IVec S_ 1 := andi main_v63 main_v67
  let main_v69 : FVec F S4x256 .f32 := Host.absf main_arg15
  let main_cst_26 : FVec F S_ .f32 := constant S_ .f32 0x7F800000#32
  let main_v70 : FVec F S4x256 .f32 := broadcastInDim S4x256 ![] bcast_S_S4x256 main_cst_26
  let main_v71 : IVec S4x256 1 := cmpf .olt main_v69 main_v70
  let main_c_27 : IVec S_ 1 := constantI S_ 1 1#1
  let main_v72 : IVec S_ 1 := (fun x v => Host.reduce IntOp.andi x v reducesTo_S4x256_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_arg19 main_arg20 main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S64x4 .f32) (main_arg6 : FVec F S64x4 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4 .f32 := Host.absf main_arg5
  let main_cst_6 : FVec F S_ .f32 := constant S_ .f32 0x7F800000#32
  let main_v20 : FVec F S64x4 .f32 := broadcastInDim S64x4 ![] bcast_S_S64x4 main_cst_6
  let main_v21 : IVec S64x4 1 := cmpf .olt main_v19 main_v20
  let main_c_7 : IVec S_ 1 := constantI S_ 1 1#1
  let main_v22 : IVec S_ 1 := (fun x v => Host.reduce IntOp.andi x v reducesTo_S64x4_S_d0_1 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x4 .f32) (main_arg1 : IVec S2x800000 32) (main_arg2 : FVec F S800000 .f32) (main_arg3 : FVec F S64x4 .f32) (main_arg4 : FVec F S64 .f32) (main_arg5 : FVec F S64x4 .f32) (main_arg6 : FVec F S64x4 .f32) (main_arg7 : FVec F S64 .f32) (main_arg8 : FVec F S64x64 .f32) (main_arg9 : FVec F S64 .f32) (main_arg10 : FVec F S64x64 .f32) (main_arg11 : FVec F S64x64 .f32) (main_arg12 : FVec F S64 .f32) (main_arg13 : FVec F S256x128 .f32) (main_arg14 : FVec F S256 .f32) (main_arg15 : FVec F S4x256 .f32) (main_arg16 : FVec F S4 .f32) (main_arg17 : FVec F S128x64 .f32) (main_arg18 : FVec F S128 .f32) (main_arg19 : FVec F S1x128 .f32) (main_arg20 : FVec F S1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x4 .f32 := Host.absf main_arg3
  let main_cst_2 : FVec F S_ .f32 := constant S_ .f32 0x7F800000#32
  let main_v10 : FVec F S64x4 .f32 := broadcastInDim S64x4 ![] bcast_S_S64x4 main_cst_2
  let main_v11 : IVec S64x4 1 := cmpf .olt main_v9 main_v10
  let main_c_3 : IVec S_ 1 := constantI S_ 1 1#1
  let main_v12 : IVec S_ 1 := (fun x v => Host.reduce IntOp.andi x v reducesTo_S64x4_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x4 : Shape := ⟨2, ![50000, 4]⟩
abbrev S2x800000 : Shape := ⟨2, ![2, 800000]⟩
abbrev S800000 : Shape := ⟨1, ![800000]⟩
abbrev S64x4 : Shape := ⟨2, ![64, 4]⟩
abbrev S64 : Shape := ⟨1, ![64]⟩
abbrev S64x64 : Shape := ⟨2, ![64, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S128x64 : Shape := ⟨2, ![128, 64]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S192x4 : Shape := ⟨2, ![192, 4]⟩
abbrev S4x192 : Shape := ⟨2, ![4, 192]⟩
abbrev S_ : Shape := ⟨0, ![]⟩
abbrev S192 : Shape := ⟨1, ![192]⟩
abbrev S1x192 : Shape := ⟨2, ![1, 192]⟩
abbrev S50000x192 : Shape := ⟨2, ![50000, 192]⟩
abbrev S5000x4 : Shape := ⟨2, ![5000, 4]⟩
abbrev S5000x192 : Shape := ⟨2, ![5000, 192]⟩
abbrev S50000x64 : Shape := ⟨2, ![50000, 64]⟩
abbrev S800000x1 : Shape := ⟨2, ![800000, 1]⟩
abbrev S800000x64 : Shape := ⟨2, ![800000, 64]⟩
abbrev S192x64 : Shape := ⟨2, ![192, 64]⟩
abbrev S64x192 : Shape := ⟨2, ![64, 192]⟩
abbrev S5000x64 : Shape := ⟨2, ![5000, 64]⟩
abbrev S800000x128 : Shape := ⟨2, ![800000, 128]⟩
abbrev S128x256 : Shape := ⟨2, ![128, 256]⟩
abbrev S256x4 : Shape := ⟨2, ![256, 4]⟩
abbrev S1x256 : Shape := ⟨2, ![1, 256]⟩
abbrev S1x4 : Shape := ⟨2, ![1, 4]⟩
abbrev S800000x4 : Shape := ⟨2, ![800000, 4]⟩
abbrev S6400x128 : Shape := ⟨2, ![6400, 128]⟩
abbrev S6400x4 : Shape := ⟨2, ![6400, 4]⟩
abbrev S6400x256 : Shape := ⟨2, ![6400, 256]⟩

abbrev nBuf : Space → Nat
  | .hbm => 126
  | .vmem => 20
  | .smem => 0
  | _ => 0

abbrev bufTy : (tb : Table) → Fin (tcTables nBuf tb) → BufTy
  | .hbm, ⟨0, _⟩ => ⟨S50000x4, .f32⟩
  | .hbm, ⟨1, _⟩ => ⟨S2x800000, .i32⟩
  | .hbm, ⟨2, _⟩ => ⟨S800000, .f32⟩
  | .hbm, ⟨3, _⟩ => ⟨S64x4, .f32⟩
  | .hbm, ⟨4, _⟩ => ⟨S64, .f32⟩
  | .hbm, ⟨5, _⟩ => ⟨S64x4, .f32⟩
  | .hbm, ⟨6, _⟩ => ⟨S64x4, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S256x128, .f32⟩
  | .hbm, ⟨14, _⟩ => ⟨S256, .f32⟩
  | .hbm, ⟨15, _⟩ => ⟨S4x256, .f32⟩
  | .hbm, ⟨16, _⟩ => ⟨S4, .f32⟩
  | .hbm, ⟨17, _⟩ => ⟨S128x64, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S192x4, .f32⟩
  | .hbm, ⟨26, _⟩ => ⟨S4x192, .f32⟩
  | .hbm, ⟨27, _⟩ => ⟨S_, .f32⟩
  | .hbm, ⟨28, _⟩ => ⟨S64, .f32⟩
  | .hbm, ⟨29, _⟩ => ⟨S192, .f32⟩
  | .hbm, ⟨30, _⟩ => ⟨S1x192, .f32⟩
  | .hbm, ⟨31, _⟩ => ⟨S50000x192, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S800000x64, .f32⟩
  | .hbm, ⟨54, _⟩ => ⟨S800000x1, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S50000x64, .f32⟩
  | .hbm, ⟨62, _⟩ => ⟨S192x64, .f32⟩
  | .hbm, ⟨63, _⟩ => ⟨S64x192, .f32⟩
  | .hbm, ⟨64, _⟩ => ⟨S_, .f32⟩
  | .hbm, ⟨65, _⟩ => ⟨S64, .f32⟩
  | .hbm, ⟨66, _⟩ => ⟨S192, .f32⟩
  | .hbm, ⟨67, _⟩ => ⟨S1x192, .f32⟩
  | .hbm, ⟨68, _⟩ => ⟨S50000x192, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .i32⟩
  | .hbm, ⟨73, _⟩ => ⟨S800000, .i32⟩
  | .hbm, ⟨74, _⟩ => ⟨S800000, .i1⟩
  | .hbm, ⟨75, _⟩ => ⟨S_, .i32⟩
  | .hbm, ⟨76, _⟩ => ⟨S800000, .i32⟩
  | .hbm, ⟨77, _⟩ => ⟨S800000, .i32⟩
  | .hbm, ⟨78, _⟩ => ⟨S800000, .i32⟩
  | .hbm, ⟨79, _⟩ => ⟨S800000x1, .i32⟩
  | .hbm, ⟨80, _⟩ => ⟨S800000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S800000x64, .f32⟩
  | .hbm, ⟨91, _⟩ => ⟨S800000x1, .f32⟩
  | .hbm, ⟨92, _⟩ => ⟨S800000x64, .f32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S50000x64, .f32⟩
  | .hbm, ⟨99, _⟩ => ⟨S50000x64, .bf16⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x64, .bf16⟩
  | .hbm, ⟨109, _⟩ => ⟨S_, .i32⟩
  | .hbm, ⟨110, _⟩ => ⟨S800000, .i32⟩
  | .hbm, ⟨111, _⟩ => ⟨S800000, .i1⟩
  | .hbm, ⟨112, _⟩ => ⟨S_, .i32⟩
  | .hbm, ⟨113, _⟩ => ⟨S800000, .i32⟩
  | .hbm, ⟨114, _⟩ => ⟨S800000, .i32⟩
  | .hbm, ⟨115, _⟩ => ⟨S800000, .i32⟩
  | .hbm, ⟨116, _⟩ => ⟨S800000x1, .i32⟩
  | .hbm, ⟨117, _⟩ => ⟨S800000x64, .bf16⟩
  | .hbm, ⟨118, _⟩ => ⟨S800000x128, .bf16⟩
  | .hbm, ⟨119, _⟩ => ⟨S128x256, .f32⟩
  | .hbm, ⟨120, _⟩ => ⟨S128x256, .bf16⟩
  | .hbm, ⟨121, _⟩ => ⟨S256x4, .f32⟩
  | .hbm, ⟨122, _⟩ => ⟨S256x4, .bf16⟩
  | .hbm, ⟨123, _⟩ => ⟨S1x256, .f32⟩
  | .hbm, ⟨124, _⟩ => ⟨S1x4, .f32⟩
  | .hbm, ⟨125, _⟩ => ⟨S800000x4, .f32⟩
  | .local _ .vmem, ⟨0, _⟩ => ⟨S5000x4, .f32⟩
  | .local _ .vmem, ⟨1, _⟩ => ⟨S5000x4, .f32⟩
  | .local _ .vmem, ⟨2, _⟩ => ⟨S4x192, .f32⟩
  | .local _ .vmem, ⟨3, _⟩ => ⟨S1x192, .f32⟩
  | .local _ .vmem, ⟨4, _⟩ => ⟨S5000x192, .f32⟩
  | .local _ .vmem, ⟨5, _⟩ => ⟨S5000x192, .f32⟩
  | .local _ .vmem, ⟨6, _⟩ => ⟨S5000x64, .f32⟩
  | .local _ .vmem, ⟨7, _⟩ => ⟨S5000x64, .f32⟩
  | .local _ .vmem, ⟨8, _⟩ => ⟨S64x192, .f32⟩
  | .local _ .vmem, ⟨9, _⟩ => ⟨S1x192, .f32⟩
  | .local _ .vmem, ⟨10, _⟩ => ⟨S5000x192, .f32⟩
  | .local _ .vmem, ⟨11, _⟩ => ⟨S5000x192, .f32⟩
  | .local _ .vmem, ⟨12, _⟩ => ⟨S6400x128, .bf16⟩
  | .local _ .vmem, ⟨13, _⟩ => ⟨S6400x128, .bf16⟩
  | .local _ .vmem, ⟨14, _⟩ => ⟨S128x256, .bf16⟩
  | .local _ .vmem, ⟨15, _⟩ => ⟨S1x256, .f32⟩
  | .local _ .vmem, ⟨16, _⟩ => ⟨S256x4, .bf16⟩
  | .local _ .vmem, ⟨17, _⟩ => ⟨S1x4, .f32⟩
  | .local _ .vmem, ⟨18, _⟩ => ⟨S6400x4, .f32⟩
  | .local _ .vmem, ⟨19, _⟩ => ⟨S6400x4, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_3 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_5 : Ref sig .tc := ⟨.hbm, 72, rfl⟩
abbrev main_v44 : Ref sig .tc := ⟨.hbm, 73, rfl⟩
abbrev main_v45 : Ref sig .tc := ⟨.hbm, 74, rfl⟩
abbrev main_c_6 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_7 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_10 : Ref sig .tc := ⟨.hbm, 100, rfl⟩
abbrev main_v67 : Ref sig .tc := ⟨.hbm, 101, rfl⟩
abbrev main_v68 : Ref sig .tc := ⟨.hbm, 102, rfl⟩
abbrev main_c_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_12 : Ref sig .tc := ⟨.hbm, 109, rfl⟩
abbrev main_v74 : Ref sig .tc := ⟨.hbm, 110, rfl⟩
abbrev main_v75 : Ref sig .tc := ⟨.hbm, 111, rfl⟩
abbrev main_c_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x4 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S64x4_S64x4_S64x4_S192x4_d0 : Shape.Concatenates [S64x4, S64x4, S64x4] S192x4 0
  transposes_S192x4_S4x192_1_0 : S192x4.Transposes [1, 0] S4x192
  bcast_S_S64 : S_.BroadcastsInDim S64 (![] : Fin 0 → Fin S64.rank)
  concatenates_S64_S64_S64_S192_d0 : Shape.Concatenates [S64, S64, S64] S192 0
  shapeCasts_S192_S1x192 : S192.ShapeCasts S1x192
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x192_S4x192_0_0 : ∀ a, (![0, 0] : Fin 2 → Nat) a + S4x192.size a ≤ S4x192.size a
  h_S4x192 : 0 < S4x192.numel
  shapeCasts_S4x192_S4x192 : S4x192.ShapeCasts S4x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S5000x192 : S1x192.Broadcasts S5000x192
  inb_S5000x192_S5000x192_0_0 : ∀ a, (![0, 0] : Fin 2 → Nat) a + S5000x192.size a ≤ S5000x192.size a
  h_S5000x192 : 0 < S5000x192.numel
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S64x64_S64x64_S64x64_S192x64_d0 : Shape.Concatenates [S64x64, S64x64, S64x64] S192x64 0
  transposes_S192x64_S64x192_1_0 : S192x64.Transposes [1, 0] S64x192
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  concatenates_S800000x64_S800000x64_S800000x128_d1 : Shape.Concatenates [S800000x64, S800000x64] S800000x128 1
  transposes_S256x128_S128x256_1_0 : S256x128.Transposes [1, 0] S128x256
  transposes_S4x256_S256x4_1_0 : S4x256.Transposes [1, 0] S256x4
  shapeCasts_S256_S1x256 : S256.ShapeCasts S1x256
  shapeCasts_S4_S1x4 : S4.ShapeCasts S1x4
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S6400x4 : S1x4.Broadcasts S6400x4
  inb_S6400x4_S6400x4_0_0 : ∀ a, (![0, 0] : Fin 2 → Nat) a + S6400x4.size a ≤ S6400x4.size a
  h_S6400x4 : 0 < S6400x4.numel
  dot_S5000x4_S4x192_S5000x192_1_0_0_1_n_n_wf : DotDims.WF S5000x4 S4x192 S5000x192 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x192_S5000x192_1_0_0_1_n_n_wf : DotDims.WF S5000x64 S64x192 S5000x192 [1] [0] [0] [1] [] []
  dot_S6400x128_S128x256_S6400x256_1_0_0_1_n_n_wf : DotDims.WF S6400x128 S128x256 S6400x256 [1] [0] [0] [1] [] []
  dot_S6400x256_S256x4_S6400x4_1_0_0_1_n_n_wf : DotDims.WF S6400x256 S256x4 S6400x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S50000x4.size a
  hwx0_0 : ∀ i : grid0.Coords, EltTy.bits .f32 = 32 ∨ (Rect.block (s := S50000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x192.size a ≤ S4x192.size a
  hwx0_1 : ∀ i : grid0.Coords, EltTy.bits .f32 = 32 ∨ (Rect.block (s := S4x192) S4x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x192.size a ≤ S50000x192.size a
  hwx0_3 : ∀ i : grid0.Coords, EltTy.bits .f32 = 32 ∨ (Rect.block (s := S50000x192) S5000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x192.size a ≤ S64x192.size a
  hwx1_1 : ∀ i : grid1.Coords, EltTy.bits .f32 = 32 ∨ (Rect.block (s := S64x192) S64x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x192.size a ≤ S50000x192.size a
  hwx1_3 : ∀ i : grid1.Coords, EltTy.bits .f32 = 32 ∨ (Rect.block (s := S50000x192) S5000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .bf16 = 32 ∨ (Rect.block (s := S800000x128) S6400x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .bf16 = 32 ∨ (Rect.block (s := S128x256) S128x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x4.size a ≤ S256x4.size a
  hwx2_3 : ∀ i : grid2.Coords, EltTy.bits .bf16 = 32 ∨ (Rect.block (s := S256x4) S256x4.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4.size a ≤ S1x4.size a
  hwx2_4 : ∀ i : grid2.Coords, EltTy.bits .f32 = 32 ∨ (Rect.block (s := S1x4) S1x4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x4.size a ≤ S800000x4.size a
  hwx2_5 : ∀ i : grid2.Coords, EltTy.bits .f32 = 32 ∨ (Rect.block (s := S800000x4) S6400x4.size (cc2_transform_5 i) (hinb2_5 i)).WholeWords (EltTy.packing .f32)

variable [Facts₀]

def dot_S5000x4_S4x192_S5000x192_1_0_0_1_n_n : DotDims S5000x4 S4x192 S5000x192 where
  lhsContracting := [1]
  rhsContracting := [0]
  lhsNonContracting := [0]
  rhsNonContracting := [1]
  lhsBatch := []
  rhsBatch := []
  wf := dot_S5000x4_S4x192_S5000x192_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf
def dot_S6400x128_S128x256_S6400x256_1_0_0_1_n_n : DotDims S6400x128 S128x256 S6400x256 where
  lhsContracting := [1]
  rhsContracting := [0]
  lhsNonContracting := [0]
  rhsNonContracting := [1]
  lhsBatch := []
  rhsBatch := []
  wf := dot_S6400x128_S128x256_S6400x256_1_0_0_1_n_n_wf
def dot_S6400x256_S256x4_S6400x4_1_0_0_1_n_n : DotDims S6400x256 S256x4 S6400x4 where
  lhsContracting := [1]
  rhsContracting := [0]
  lhsNonContracting := [0]
  rhsNonContracting := [1]
  lhsBatch := []
  rhsBatch := []
  wf := dot_S6400x256_S256x4_S6400x4_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S64x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S5000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v81) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S256x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v87) S1x4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S6400x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S800000 : Shape := ⟨1, ![800000]⟩
abbrev S64x4 : Shape := ⟨2, ![64, 4]⟩
abbrev S64 : Shape := ⟨1, ![64]⟩
abbrev S64x64 : Shape := ⟨2, ![64, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S128x64 : Shape := ⟨2, ![128, 64]⟩
abbrev S128 : Shape := ⟨1, ![128]⟩
abbrev S1x128 : Shape := ⟨2, ![1, 128]⟩
abbrev S1 : Shape := ⟨1, ![1]⟩
abbrev S1x800000 : Shape := ⟨2, ![1, 800000]⟩
abbrev S4x64 : Shape := ⟨2, ![4, 64]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x256 : Shape := ⟨2, ![128, 256]⟩
abbrev S800000x256 : Shape := ⟨2, ![800000, 256]⟩
abbrev S1x256 : Shape := ⟨2, ![1, 256]⟩
abbrev S256x4 : Shape := ⟨2, ![256, 4]⟩
abbrev S800000x4 : Shape := ⟨2, ![800000, 4]⟩
abbrev S1x4 : Shape := ⟨2, ![1, 4]⟩

abbrev nBuf : Space → Nat
  | .hbm => 135
  | .vmem => 0
  | .smem => 0
  | _ => 0

abbrev hbmTy0_0 (i : Nat) : BufTy := match i % 128 with
  | 0 => ⟨S50000x4, .f32⟩
  | 1 => ⟨S2x800000, .i32⟩
  | 2 => ⟨S800000, .f32⟩
  | 3 => ⟨S64x4, .f32⟩
  | 4 => ⟨S64, .f32⟩
  | 5 => ⟨S64x4, .f32⟩
  | 6 => ⟨S64x4, .f32⟩
  | 7 => ⟨S64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S256x128, .f32⟩
  | 14 => ⟨S256, .f32⟩
  | 15 => ⟨S4x256, .f32⟩
  | 16 => ⟨S4, .f32⟩
  | 17 => ⟨S128x64, .f32⟩
  | 18 => ⟨S128, .f32⟩
  | 19 => ⟨S1x128, .f32⟩
  | 20 => ⟨S1, .f32⟩
  | 21 => ⟨S1x800000, .i32⟩
  | 22 => ⟨S800000, .i32⟩
  | 23 => ⟨S1x800000, .i32⟩
  | 24 => ⟨S800000, .i32⟩
  | 25 => ⟨S4x64, .f32⟩
  | 26 => ⟨S50000x64, .f32⟩
  | 27 => ⟨S1x64, .f32⟩
  | 28 => ⟨S50000x64, .f32⟩
  | 29 => ⟨S50000x64, .f32⟩
  | 30 => ⟨S4x64, .f32⟩
  | 31 => ⟨S50000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x64, .f32⟩
  | 51 => ⟨S800000x1, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S4x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S64x64, .f32⟩
  | 65 => ⟨S50000x64, .f32⟩
  | 66 => ⟨S1x64, .f32⟩
  | 67 => ⟨S50000x64, .f32⟩
  | 68 => ⟨S50000x64, .f32⟩
  | 69 => ⟨S64x64, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x64, .f32⟩
  | 90 => ⟨S800000x1, .f32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S64x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x128, .f32⟩
  | 122 => ⟨S128x256, .f32⟩
  | 123 => ⟨S800000x256, .f32⟩
  | 124 => ⟨S1x256, .f32⟩
  | 125 => ⟨S800000x256, .f32⟩
  | 126 => ⟨S800000x256, .f32⟩
  | 127 => ⟨S_, .f32⟩
  | _ => ⟨S50000x4, .f32⟩

abbrev hbmTy0_1 (i : Nat) : BufTy := match i % 128 with
  | 0 => ⟨S800000x256, .f32⟩
  | 1 => ⟨S800000x256, .f32⟩
  | 2 => ⟨S256x4, .f32⟩
  | 3 => ⟨S800000x4, .f32⟩
  | 4 => ⟨S1x4, .f32⟩
  | 5 => ⟨S800000x4, .f32⟩
  | 6 => ⟨S800000x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_1 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_3 : Ref sig .tc := ⟨.hbm, 71, rfl⟩
abbrev main_v45 : Ref sig .tc := ⟨.hbm, 72, rfl⟩
abbrev main_v46 : Ref sig .tc := ⟨.hbm, 73, rfl⟩
abbrev main_c_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_5 : Ref sig .tc := ⟨.hbm, 80, rfl⟩
abbrev main_v52 : Ref sig .tc := ⟨.hbm, 81, rfl⟩
abbrev main_v53 : Ref sig .tc := ⟨.hbm, 82, rfl⟩
abbrev main_c_6 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_8 : Ref sig .tc := ⟨.hbm, 103, rfl⟩
abbrev main_v72 : Ref sig .tc := ⟨.hbm, 104, rfl⟩
abbrev main_v73 : Ref sig .tc := ⟨.hbm, 105, rfl⟩
abbrev main_c_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_10 : Ref sig .tc := ⟨.hbm, 112, rfl⟩
abbrev main_v79 : Ref sig .tc := ⟨.hbm, 113, rfl⟩
abbrev main_v80 : Ref sig .tc := ⟨.hbm, 114, rfl⟩
abbrev main_c_11 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_call0_cst : Ref sig .tc := ⟨.hbm, 127, rfl⟩
abbrev main_call0_v0 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S64x4_S4x64_1_0 : S64x4.Transposes [1, 0] S4x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S64x64_S64x64_1_0 : S64x64.Transposes [1, 0] S64x64
  concatenates_S800000x64_S800000x64_S800000x128_d1 : Shape.Concatenates [S800000x64, S800000x64] S800000x128 1
  transposes_S256x128_S128x256_1_0 : S256x128.Transposes [1, 0] S128x256
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  transposes_S4x256_S256x4_1_0 : S4x256.Transposes [1, 0] S256x4
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  dot_S50000x4_S4x64_S50000x64_1_0_0_1_n_n_wf : DotDims.WF S50000x4 S4x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S800000x128_S128x256_S800000x256_1_0_0_1_n_n_wf : DotDims.WF S800000x128 S128x256 S800000x256 [1] [0] [0] [1] [] []
  dot_S800000x256_S256x4_S800000x4_1_0_0_1_n_n_wf : DotDims.WF S800000x256 S256x4 S800000x4 [1] [0] [0] [1] [] []

variable [Facts₀]

def dot_S50000x4_S4x64_S50000x64_1_0_0_1_n_n : DotDims S50000x4 S4x64 S50000x64 where
  lhsContracting := [1]
  rhsContracting := [0]
  lhsNonContracting := [0]
  rhsNonContracting := [1]
  lhsBatch := []
  rhsBatch := []
  wf := dot_S50000x4_S4x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def dot_S800000x256_S256x4_S800000x4_1_0_0_1_n_n : DotDims S800000x256 S256x4 S800000x4 where
  lhsContracting := [1]
  rhsContracting := [0]
  lhsNonContracting := [0]
  rhsNonContracting := [1]
  lhsBatch := []
  rhsBatch := []
  wf := dot_S800000x256_S256x4_S800000x4_1_0_0_1_n_n_wf

class Facts : Prop extends Facts₀ where

variable [Facts]
-- ==== Proof.KData.lean ====
/-
  The staged blocks and the per-point results of the three launches, and the buffer contents between the
  stretches of the program.

  Each launch walks a one-axis grid over the rows of its first operand: point t reads the t-th block of rows of
  that operand whole, reads the small operands (a weight matrix, a bias row) whole at every point, and writes the
  t-th block of rows of the result.  For each launch this module names a window's block at a point, the
  result block as the body's arithmetic of the operand blocks, and the bookkeeping record the pipeline
  theorems are stated over.  The contents of the unscoped buffers are then followed through the program: the
  launch contents, each stretch of host operations folded over them, and after each launch the result array
  as the blocks written back leave it.
-/
import proofs.«117817_j14499809592003_2_alg».proof.Proof.Gen.Kernel.Launch
import proofs.«117817_j14499809592003_2_alg».proof.Proof.Gen.Kernel.Skeleton
import proofs.«117817_j14499809592003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents a launch is entered with
variable (V : (c : Dev nD) → (b : Ref sig .tc) → Buf (Elt F) ((c : Thread nD τ).loc b))

/-! ## Launch 0 -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x4 := Rect.unit (s := S5000x4) ![0, 0] S5000x4.size inb_S5000x4_S5000x4_0_0
abbrev r0_1 : Rect S4x192 := Rect.unit (s := S4x192) ![0, 0] S4x192.size inb_S4x192_S4x192_0_0
abbrev r0_2 : Rect S1x192 := Rect.unit (s := S1x192) ![0, 0] S1x192.size inb_S1x192_S1x192_0_0
abbrev r0_3 : Rect S5000x192 := Rect.unit (s := S5000x192) ![0, 0] S5000x192.size inb_S5000x192_S5000x192_0_0

/-- The result block after the body: the one whole-block store of the body's arithmetic of the operand blocks. -/
def out0_3 (x0 : Vec F S5000x4 .f32) (x1 : Vec F S4x192 .f32) (x2 : Vec F S1x192 .f32) : Vec F S5000x192 .f32 :=
  View.canon [⟨r0_3, k0_pay1 (View.ld x0 r0_0) (View.ld x1 r0_1) (View.ld x2 r0_2)⟩]

/-- The pipeline's bookkeeping for launch 0 on core `c`: the arrays as entered; after the body at point `t`
    each operand's buffer still at its block and the result's at the body's arithmetic of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-! ## Launch 1 -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x192 := Rect.unit (s := S64x192) ![0, 0] S64x192.size inb_S64x192_S64x192_0_0
abbrev r1_2 : Rect S1x192 := Rect.unit (s := S1x192) ![0, 0] S1x192.size inb_S1x192_S1x192_0_0
abbrev r1_3 : Rect S5000x192 := Rect.unit (s := S5000x192) ![0, 0] S5000x192.size inb_S5000x192_S5000x192_0_0

/-- The result block after the body: the one whole-block store of the body's arithmetic of the operand blocks. -/
def out1_3 (x0 : Vec F S5000x64 .f32) (x1 : Vec F S64x192 .f32) (x2 : Vec F S1x192 .f32) : Vec F S5000x192 .f32 :=
  View.canon [⟨r1_3, k1_pay1 (View.ld x0 r1_0) (View.ld x1 r1_1) (View.ld x2 r1_2)⟩]

/-- The pipeline's bookkeeping for launch 1 on core `c`: the arrays as entered; after the body at point `t`
    each operand's buffer still at its block and the result's at the body's arithmetic of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! ## Launch 2 -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S6400x128 := Rect.unit (s := S6400x128) ![0, 0] S6400x128.size inb_S6400x128_S6400x128_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S256x4 := Rect.unit (s := S256x4) ![0, 0] S256x4.size inb_S256x4_S256x4_0_0
abbrev r2_4 : Rect S1x4 := Rect.unit (s := S1x4) ![0, 0] S1x4.size inb_S1x4_S1x4_0_0
abbrev r2_5 : Rect S6400x4 := Rect.unit (s := S6400x4) ![0, 0] S6400x4.size inb_S6400x4_S6400x4_0_0

/-- The result block after the body: the one whole-block store of the body's arithmetic of the operand blocks. -/
def out2_5 (x0 : Vec F S6400x128 .bf16) (x1 : Vec F S128x256 .bf16) (x2 : Vec F S1x256 .f32) (x3 : Vec F S256x4 .bf16) (x4 : Vec F S1x4 .f32) : Vec F S6400x4 .f32 :=
  View.canon [⟨r2_5, k2_pay1 (View.ld x0 r2_0) (View.ld x1 r2_1) (View.ld x2 r2_2) (View.ld x3 r2_3) (View.ld x4 r2_4)⟩]

/-- The pipeline's bookkeeping for launch 2 on core `c`: the arrays as entered; after the body at point `t`
    each operand's buffer still at its block and the result's at the body's arithmetic of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Regions

/-! ## The buffer contents between the stretches of the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After launch 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations before launch 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After launch 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations before launch 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After launch 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.Kernel.Fr

end
-- ==== Proof.KFrame.lean ====
/-
  The program runs to its end without a fault, and every unscoped buffer then holds the contents followed
  through the program in the data module: each launch's body, run symbolically once on whole staging buffers,
  reads its operand blocks and stores the result block; the pipeline theorem then carries the launch from the
  buffer contents at its entry to those at its exit; the stretches of host operations fold over the contents
  in between.  The argument arrays are never written, so they end as launched.
-/
import proofs.«117817_j14499809592003_2_alg».proof.Proof.KData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Regions
variable (V : (c : Dev nD) → (b : Ref sig .tc) → Buf (Elt F) ((c : Thread nD τ).loc b))

/-! ## Launch 0: the body -/

/-- Operand window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store covers the result block. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

set_option maxHeartbeats 1000000 in
/-- The body on whole staging buffers, the operands' at `xW` and the result's at anything, leaves the operands'
    as they were and the result's at `out0_3` of them. -/
theorem sound_kernel0 (c : Dev nD) (E : Set ℕ) (i : grid0.Coords) (arg0 : Memref sig .tc .vmem S5000x4 .f32) (harg0 : arg0.IsWhole) (arg1 : Memref sig .tc .vmem S4x192 .f32) (harg1 : arg1.IsWhole) (arg2 : Memref sig .tc .vmem S1x192 .f32) (harg2 : arg2.IsWhole) (arg3 : Memref sig .tc .vmem S5000x192 .f32) (harg3 : arg3.IsWhole)
    (x0 : Vec F S5000x4 .f32) (x1 : Vec F S4x192 .f32) (x2 : Vec F S1x192 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## Launch 1: the body -/

/-- Operand window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store covers the result block. -/
theorem cover1_3 (p0 : Vec F S5000x192 .f32) (y : S5000x192.Idx) :
    ∃ pc ∈ ([⟨r1_3, p0⟩] : List (View.Piece (Elt F) S5000x192 .f32)), y ∈ pc.1.set :=
  View.cover_of_tiled [⟨r1_3, p0⟩] S5000x192.size (by rfl) y

set_option maxHeartbeats 1000000 in
/-- The body on whole staging buffers, the operands' at `xW` and the result's at anything, leaves the operands'
    as they were and the result's at `out1_3` of them. -/
theorem sound_kernel1 (c : Dev nD) (E : Set ℕ) (i : grid1.Coords) (arg0 : Memref sig .tc .vmem S5000x64 .f32) (harg0 : arg0.IsWhole) (arg1 : Memref sig .tc .vmem S64x192 .f32) (harg1 : arg1.IsWhole) (arg2 : Memref sig .tc .vmem S1x192 .f32) (harg2 : arg2.IsWhole) (arg3 : Memref sig .tc .vmem S5000x192 .f32) (harg3 : arg3.IsWhole)
    (x0 : Vec F S5000x64 .f32) (x1 : Vec F S64x192 .f32) (x2 : Vec F S1x192 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! ## Launch 2: the body -/

/-- Operand window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Operand window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Operand window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Operand window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Operand window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store covers the result block. -/
theorem cover2_5 (p0 : Vec F S6400x4 .f32) (y : S6400x4.Idx) :
    ∃ pc ∈ ([⟨r2_5, p0⟩] : List (View.Piece (Elt F) S6400x4 .f32)), y ∈ pc.1.set :=
  View.cover_of_tiled [⟨r2_5, p0⟩] S6400x4.size (by rfl) y

set_option maxHeartbeats 1000000 in
/-- The body on whole staging buffers, the operands' at `xW` and the result's at anything, leaves the operands'
    as they were and the result's at `out2_5` of them. -/
theorem sound_kernel2 (c : Dev nD) (E : Set ℕ) (i : grid2.Coords) (arg0 : Memref sig .tc .vmem S6400x128 .bf16) (harg0 : arg0.IsWhole) (arg1 : Memref sig .tc .vmem S128x256 .bf16) (harg1 : arg1.IsWhole) (arg2 : Memref sig .tc .vmem S1x256 .f32) (harg2 : arg2.IsWhole) (arg3 : Memref sig .tc .vmem S256x4 .bf16) (harg3 : arg3.IsWhole) (arg4 : Memref sig .tc .vmem S1x4 .f32) (harg4 : arg4.IsWhole) (arg5 : Memref sig .tc .vmem S6400x4 .f32) (harg5 : arg5.IsWhole)
    (x0 : Vec F S6400x128 .bf16) (x1 : Vec F S128x256 .bf16) (x2 : Vec F S1x256 .f32) (x3 : Vec F S256x4 .bf16) (x4 : Vec F S1x4 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2_kernel i arg0 harg0 arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Regions

variable (m : (ℓ : Loc nD τ sig) → Buf (Elt F) ℓ) (ρ : Dev nD → PrngReg)

/-! ## The launches as segments -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Launch 0 over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program from `m` terminates, nothing faulting, with every unscoped buffer
    of every core at the contents followed through the program. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Fr

end
-- ==== Proof.KArgs.lean ====
/-
  No host operation and no launch writes an argument array: a launch reads an argument through an operand
  window or not at all.  So the contents followed through the program, read at an argument's buffer, are the
  launch contents.
-/
import proofs.«117817_j14499809592003_2_alg».proof.Proof.KData
import proofs.«117817_j14499809592003_2_alg».proof.Proof.Gen.Kernel.Regions

set_option maxRecDepth 16384

noncomputable section

namespace Cert.Kernel.Fr

open Cert.Kernel
open Cert.Kernel.Gen (hostOps0 hostOps1 hostOps2 hostOps0_W hostOps1_W hostOps2_W hostOps0_writes hostOps1_writes hostOps2_writes)
open Idealize.ShloMosaic Idealize.ShloMosaic.TcCoe Idealize.SL.Sem

variable {F : FTy → Type} [FloatOps F]
variable (m : (ℓ : Loc nD τ sig) → Buf (Elt F) ℓ) (ρ : Dev nD → PrngReg)

theorem W6_arg (c : Dev nD) (b : Ref sig .tc)
    (h2 : ∀ w, Pipeline.arrRef spec2 w ≠ b) (h1 : ∀ w, Pipeline.arrRef spec1 w ≠ b)
    (h0 : (∀ w, Pipeline.arrRef spec0 w ≠ b) ∨ b = Pipeline.arrRef spec0 0)
    (hw2 : b ∉ (hostOps2_W : List (Ref sig .tc))) (hw1 : b ∉ (hostOps1_W : List (Ref sig .tc))) (hw0 : b ∉ (hostOps0_W : List (Ref sig .tc))) :
    W6 m ρ c (Proc.devRef .tc b) = m ((c : Thread nD τ).loc b) := by
  rw [W6_of_ne m ρ c b h2]
  rw [show W5 m ρ c (Proc.devRef .tc b) = W4 m ρ c (Proc.devRef .tc b) from
    StableHlo.after_of_writes_sub hostOps2 _ hostOps2_writes hw2]
  rw [W4_of_ne m ρ c b h1]
  rw [show W3 m ρ c (Proc.devRef .tc b) = W2 m ρ c (Proc.devRef .tc b) from
    StableHlo.after_of_writes_sub hostOps1 _ hostOps1_writes hw1]
  have e2 : W2 m ρ c (Proc.devRef .tc b) = W1 m ρ c (Proc.devRef .tc b) := by
    rcases h0 with h0 | rfl
    · exact W2_of_ne m ρ c b h0
    · exact (W2_arr m ρ c 0).trans (((dat0 (V1 m ρ) c).arrAt_in 0 rfl _).trans (A_eq0 (V1 m ρ) c 0))
  rw [e2]
  exact StableHlo.after_of_writes_sub hostOps0 _ hostOps0_writes hw0

/-- A buffer no launch's window stages and no later stretch writes holds, before the last launch, what it held
    after the first stretch. -/
theorem W4_keep (c : Dev nD) (b : Ref sig .tc) (h1 : ∀ w, Pipeline.arrRef spec1 w ≠ b)
    (hw1 : b ∉ (hostOps1_W : List (Ref sig .tc))) (h0 : ∀ w, Pipeline.arrRef spec0 w ≠ b) :
    W4 m ρ c (Proc.devRef .tc b) = W1 m ρ c (Proc.devRef .tc b) := by
  rw [W4_of_ne m ρ c b h1]
  rw [show W3 m ρ c (Proc.devRef .tc b) = W2 m ρ c (Proc.devRef .tc b) from
    StableHlo.after_of_writes_sub hostOps1 _ hostOps1_writes hw1]
  exact W2_of_ne m ρ c b h0

/-- An argument holds its launch contents after the first stretch. -/
theorem W1_arg (c : Dev nD) (b : Ref sig .tc) (hw0 : b ∉ (hostOps0_W : List (Ref sig .tc))) :
    W1 m ρ c (Proc.devRef .tc b) = m ((c : Thread nD τ).loc b) :=
  StableHlo.after_of_writes_sub hostOps0 _ hostOps0_writes hw0

theorem W6_main_arg0 (c : Dev nD) : W6 m ρ c (Proc.devRef .tc main_arg0) = m ((c : Thread nD τ).loc main_arg0) :=
  W6_arg m ρ c main_arg0 (by decide) (by decide) (Or.inr rfl) (by decide) (by decide) (by decide)
theorem W6_main_arg1 (c : Dev nD) : W6 m ρ c (Proc.devRef .tc main_arg1) = m ((c : Thread nD τ).loc main_arg1) :=
  W6_arg m ρ c main_arg1 (by decide) (by decide) (Or.inl (by decide)) (by decide) (by decide) (by decide)
theorem W6_main_arg2 (c : Dev nD) : W6 m ρ c (Proc.devRef .tc main_arg2) = m ((c : Thread nD τ).loc main_arg2) :=
  W6_arg m ρ c main_arg2 (by decide) (by decide) (Or.inl (by decide)) (by decide) (by decide) (by decide)
theorem W6_main_arg3 (c : Dev nD) : W6 m ρ c (Proc.devRef .tc main_arg3) = m ((c : Thread nD τ).loc main_arg3) :=
  W6_arg m ρ c main_arg3 (by decide) (by decide) (Or.inl (by decide)) (by decide) (by decide) (by decide)
theorem W6_main_arg4 (c : Dev nD) : W6 m ρ c (Proc.devRef .tc main_arg4) = m ((c : Thread nD τ).loc main_arg4) :=
  W6_arg m ρ c main_arg4 (by decide) (by decide) (Or.inl (by decide)) (by decide) (by decide) (by decide)
theorem W6_main_arg5 (c : Dev nD) : W6 m ρ c (Proc.devRef .tc main_arg5) = m ((c : Thread nD τ).loc main_arg5) :=
  W6_arg m ρ c main_arg5 (by decide) (by decide) (Or.inl (by decide)) (by decide) (by decide) (by decide)
theorem W6_main_arg6 (c : Dev nD) : W6 m ρ c (Proc.devRef .tc main_arg6) = m ((c : Thread nD τ).loc main_arg6) :=
  W6_arg m ρ c main_arg6 (by decide) (by decide) (Or.inl (by decide)) (by decide) (by decide) (by decide)
theorem W6_main_arg7 (c : Dev nD) : W6 m ρ c (Proc.devRef .tc main_arg7) = m ((c : Thread nD τ).loc main_arg7) :=
  W6_arg m ρ c main_arg7 (by decide) (by decide) (Or.inl (by decide)) (by decide) (by decide) (by decide)
theorem W6_main_arg8 (c : Dev nD) : W6 m ρ c (Proc.devRef .tc main_arg8) = m ((c : Thread nD τ).loc main_arg8) :=
  W6_arg m ρ c main_arg8 (by decide) (by decide) (Or.inl (by decide)) (by decide) (by decide) (by decide)
theorem W6_main_arg9 (c : Dev nD) : W6 m ρ c (Proc.devRef .tc main_arg9) = m ((c : Thread nD τ).loc main_arg9) :=
  W6_arg m ρ c main_arg9 (by decide) (by decide) (Or.inl (by decide)) (by decide) (by decide) (by decide)
theorem W6_main_arg10 (c : Dev nD) : W6 m ρ c (Proc.devRef .tc main_arg10) = m ((c : Thread nD τ).loc main_arg10) :=
  W6_arg m ρ c main_arg10 (by decide) (by decide) (Or.inl (by decide)) (by decide) (by decide) (by decide)
theorem W6_main_arg11 (c : Dev nD) : W6 m ρ c (Proc.devRef .tc main_arg11) = m ((c : Thread nD τ).loc main_arg11) :=
  W6_arg m ρ c main_arg11 (by decide) (by decide) (Or.inl (by decide)) (by decide) (by decide) (by decide)
theorem W6_main_arg12 (c : Dev nD) : W6 m ρ c (Proc.devRef .tc main_arg12) = m ((c : Thread nD τ).loc main_arg12) :=
  W6_arg m ρ c main_arg12 (by decide) (by decide) (Or.inl (by decide)) (by decide) (by decide) (by decide)
theorem W6_main_arg13 (c : Dev nD) : W6 m ρ c (Proc.devRef .tc main_arg13) = m ((c : Thread nD τ).loc main_arg13) :=
  W6_arg m ρ c main_arg13 (by decide) (by decide) (Or.inl (by decide)) (by decide) (by decide) (by decide)
theorem W6_main_arg14 (c : Dev nD) : W6 m ρ c (Proc.devRef .tc main_arg14) = m ((c : Thread nD τ).loc main_arg14) :=
  W6_arg m ρ c main_arg14 (by decide) (by decide) (Or.inl (by decide)) (by decide) (by decide) (by decide)
theorem W6_main_arg15 (c : Dev nD) : W6 m ρ c (Proc.devRef .tc main_arg15) = m ((c : Thread nD τ).loc main_arg15) :=
  W6_arg m ρ c main_arg15 (by decide) (by decide) (Or.inl (by decide)) (by decide) (by decide) (by decide)
theorem W6_main_arg16 (c : Dev nD) : W6 m ρ c (Proc.devRef .tc main_arg16) = m ((c : Thread nD τ).loc main_arg16) :=
  W6_arg m ρ c main_arg16 (by decide) (by decide) (Or.inl (by decide)) (by decide) (by decide) (by decide)
theorem W6_main_arg17 (c : Dev nD) : W6 m ρ c (Proc.devRef .tc main_arg17) = m ((c : Thread nD τ).loc main_arg17) :=
  W6_arg m ρ c main_arg17 (by decide) (by decide) (Or.inl (by decide)) (by decide) (by decide) (by decide)
theorem W6_main_arg18 (c : Dev nD) : W6 m ρ c (Proc.devRef .tc main_arg18) = m ((c : Thread nD τ).loc main_arg18) :=
  W6_arg m ρ c main_arg18 (by decide) (by decide) (Or.inl (by decide)) (by decide) (by decide) (by decide)
theorem W6_main_arg19 (c : Dev nD) : W6 m ρ c (Proc.devRef .tc main_arg19) = m ((c : Thread nD τ).loc main_arg19) :=
  W6_arg m ρ c main_arg19 (by decide) (by decide) (Or.inl (by decide)) (by decide) (by decide) (by decide)
theorem W6_main_arg20 (c : Dev nD) : W6 m ρ c (Proc.devRef .tc main_arg20) = m ((c : Thread nD τ).loc main_arg20) :=
  W6_arg m ρ c main_arg20 (by decide) (by decide) (Or.inl (by decide)) (by decide) (by decide) (by decide)

end Cert.Kernel.Fr

end
-- ==== Proof.KIData.lean ====
/-
  The staged blocks and the per-point results of the three launches, and the buffer contents between the
  stretches of the program.

  Each launch walks a one-axis grid over the rows of its first operand: point t reads the t-th block of rows of
  that operand whole, reads the small operands (a weight matrix, a bias row) whole at every point, and writes the
  t-th block of rows of the result.  For each launch this module names a window's block at a point, the
  result block as the body's arithmetic of the operand blocks, and the bookkeeping record the pipeline
  theorems are stated over.  The contents of the unscoped buffers are then followed through the program: the
  launch contents, each stretch of host operations folded over them, and after each launch the result array
  as the blocks written back leave it.
-/
import proofs.«117817_j14499809592003_2_alg».proof.Proof.Gen.KernelIdeal.Launch
import proofs.«117817_j14499809592003_2_alg».proof.Proof.Gen.KernelIdeal.Skeleton
import proofs.«117817_j14499809592003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents a launch is entered with
variable (V : (c : Dev nD) → (b : Ref sig .tc) → Buf (Elt F) ((c : Thread nD τ).loc b))

/-! ## Launch 0 -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x4 := Rect.unit (s := S5000x4) ![0, 0] S5000x4.size inb_S5000x4_S5000x4_0_0
abbrev r0_1 : Rect S4x192 := Rect.unit (s := S4x192) ![0, 0] S4x192.size inb_S4x192_S4x192_0_0
abbrev r0_2 : Rect S1x192 := Rect.unit (s := S1x192) ![0, 0] S1x192.size inb_S1x192_S1x192_0_0
abbrev r0_3 : Rect S5000x192 := Rect.unit (s := S5000x192) ![0, 0] S5000x192.size inb_S5000x192_S5000x192_0_0

/-- The result block after the body: the one whole-block store of the body's arithmetic of the operand blocks. -/
def out0_3 (x0 : Vec F S5000x4 .f32) (x1 : Vec F S4x192 .f32) (x2 : Vec F S1x192 .f32) : Vec F S5000x192 .f32 :=
  View.canon [⟨r0_3, k0_pay1 (View.ld x0 r0_0) (View.ld x1 r0_1) (View.ld x2 r0_2)⟩]

/-- The pipeline's bookkeeping for launch 0 on core `c`: the arrays as entered; after the body at point `t`
    each operand's buffer still at its block and the result's at the body's arithmetic of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-! ## Launch 1 -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x192 := Rect.unit (s := S64x192) ![0, 0] S64x192.size inb_S64x192_S64x192_0_0
abbrev r1_2 : Rect S1x192 := Rect.unit (s := S1x192) ![0, 0] S1x192.size inb_S1x192_S1x192_0_0
abbrev r1_3 : Rect S5000x192 := Rect.unit (s := S5000x192) ![0, 0] S5000x192.size inb_S5000x192_S5000x192_0_0

/-- The result block after the body: the one whole-block store of the body's arithmetic of the operand blocks. -/
def out1_3 (x0 : Vec F S5000x64 .f32) (x1 : Vec F S64x192 .f32) (x2 : Vec F S1x192 .f32) : Vec F S5000x192 .f32 :=
  View.canon [⟨r1_3, k1_pay1 (View.ld x0 r1_0) (View.ld x1 r1_1) (View.ld x2 r1_2)⟩]

/-- The pipeline's bookkeeping for launch 1 on core `c`: the arrays as entered; after the body at point `t`
    each operand's buffer still at its block and the result's at the body's arithmetic of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! ## Launch 2 -/

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S6400x128 := Rect.unit (s := S6400x128) ![0, 0] S6400x128.size inb_S6400x128_S6400x128_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S256x4 := Rect.unit (s := S256x4) ![0, 0] S256x4.size inb_S256x4_S256x4_0_0
abbrev r2_4 : Rect S1x4 := Rect.unit (s := S1x4) ![0, 0] S1x4.size inb_S1x4_S1x4_0_0
abbrev r2_5 : Rect S6400x4 := Rect.unit (s := S6400x4) ![0, 0] S6400x4.size inb_S6400x4_S6400x4_0_0

/-- The result block after the body: the one whole-block store of the body's arithmetic of the operand blocks. -/
def out2_5 (x0 : Vec F S6400x128 .bf16) (x1 : Vec F S128x256 .bf16) (x2 : Vec F S1x256 .f32) (x3 : Vec F S256x4 .bf16) (x4 : Vec F S1x4 .f32) : Vec F S6400x4 .f32 :=
  View.canon [⟨r2_5, k2_pay1 (View.ld x0 r2_0) (View.ld x1 r2_1) (View.ld x2 r2_2) (View.ld x3 r2_3) (View.ld x4 r2_4)⟩]

/-- The pipeline's bookkeeping for launch 2 on core `c`: the arrays as entered; after the body at point `t`
    each operand's buffer still at its block and the result's at the body's arithmetic of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

end Regions

/-! ## The buffer contents between the stretches of the program -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before launch 0. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After launch 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host operations before launch 1. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After launch 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host operations before launch 2. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After launch 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

end Cert.KernelIdeal.Fr

end
-- ==== Proof.KIFrame.lean ====
/-
  The program runs to its end without a fault, and every unscoped buffer then holds the contents followed
  through the program in the data module: each launch's body, run symbolically once on whole staging buffers,
  reads its operand blocks and stores the result block; the pipeline theorem then carries the launch from the
  buffer contents at its entry to those at its exit; the stretches of host operations fold over the contents
  in between.  The argument arrays are never written, so they end as launched.
-/
import proofs.«117817_j14499809592003_2_alg».proof.Proof.KIData

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Regions
variable (V : (c : Dev nD) → (b : Ref sig .tc) → Buf (Elt F) ((c : Thread nD τ).loc b))

/-! ## Launch 0: the body -/

/-- Operand window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Operand window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Operand window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one store covers the result block. -/
theorem cover0_3 (p0 : Vec F S5000x192 .f32) (y : S5000x192.Idx) :
    ∃ pc ∈ ([⟨r0_3, p0⟩] : List (View.Piece (Elt F) S5000x192 .f32)), y ∈ pc.1.set :=
  View.cover_of_tiled [⟨r0_3, p0⟩] S5000x192.size (by rfl) y

set_option maxHeartbeats 1000000 in
/-- The body on whole staging buffers, the operands' at `xW` and the result's at anything, leaves the operands'
    as they were and the result's at `out0_3` of them. -/
theorem sound_kernel0 (c : Dev nD) (E : Set ℕ) (i : grid0.Coords) (arg0 : Memref sig .tc .vmem S5000x4 .f32) (harg0 : arg0.IsWhole) (arg1 : Memref sig .tc .vmem S4x192 .f32) (harg1 : arg1.IsWhole) (arg2 : Memref sig .tc .vmem S1x192 .f32) (harg2 : arg2.IsWhole) (arg3 : Memref sig .tc .vmem S5000x192 .f32) (harg3 : arg3.IsWhole)
    (x0 : Vec F S5000x4 .f32) (x1 : Vec F S4x192 .f32) (x2 : Vec F S1x192 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

/-! ## Launch 1: the body -/

/-- Operand window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Operand window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Operand window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The one store covers the result block. -/
theorem cover1_3 (p0 : Vec F S5000x192 .f32) (y : S5000x192.Idx) :
    ∃ pc ∈ ([⟨r1_3, p0⟩] : List (View.Piece (Elt F) S5000x192 .f32)), y ∈ pc.1.set :=
  View.cover_of_tiled [⟨r1_3, p0⟩] S5000x192.size (by rfl) y

set_option maxHeartbeats 1000000 in
/-- The body on whole staging buffers, the operands' at `xW` and the result's at anything, leaves the operands'
    as they were and the result's at `out1_3` of them. -/
theorem sound_kernel1 (c : Dev nD) (E : Set ℕ) (i : grid1.Coords) (arg0 : Memref sig .tc .vmem S5000x64 .f32) (harg0 : arg0.IsWhole) (arg1 : Memref sig .tc .vmem S64x192 .f32) (harg1 : arg1.IsWhole) (arg2 : Memref sig .tc .vmem S1x192 .f32) (harg2 : arg2.IsWhole) (arg3 : Memref sig .tc .vmem S5000x192 .f32) (harg3 : arg3.IsWhole)
    (x0 : Vec F S5000x64 .f32) (x1 : Vec F S64x192 .f32) (x2 : Vec F S1x192 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1_kernel i arg0 harg0 arg1 harg1 arg2 harg2 arg3 harg3) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! ## Launch 2: the body -/

/-- Operand window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Operand window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Operand window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Operand window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Operand window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one store covers the result block. -/
theorem cover2_5 (p0 : Vec F S6400x4 .f32) (y : S6400x4.Idx) :
    ∃ pc ∈ ([⟨r2_5, p0⟩] : List (View.Piece (Elt F) S6400x4 .f32)), y ∈ pc.1.set :=
  View.cover_of_tiled [⟨r2_5, p0⟩] S6400x4.size (by rfl) y

set_option maxHeartbeats 1000000 in
/-- The body on whole staging buffers, the operands' at `xW` and the result's at anything, leaves the operands'
    as they were and the result's at `out2_5` of them. -/
theorem sound_kernel2 (c : Dev nD) (E : Set ℕ) (i : grid2.Coords) (arg0 : Memref sig .tc .vmem S6400x128 .bf16) (harg0 : arg0.IsWhole) (arg1 : Memref sig .tc .vmem S128x256 .bf16) (harg1 : arg1.IsWhole) (arg2 : Memref sig .tc .vmem S1x256 .f32) (harg2 : arg2.IsWhole) (arg3 : Memref sig .tc .vmem S256x4 .bf16) (harg3 : arg3.IsWhole) (arg4 : Memref sig .tc .vmem S1x4 .f32) (harg4 : arg4.IsWhole) (arg5 : Memref sig .tc .vmem S6400x4 .f32) (harg5 : arg5.IsWhole)
    (x0 : Vec F S6400x128 .bf16) (x1 : Vec F S128x256 .bf16) (x2 : Vec F S1x256 .f32) (x3 : Vec F S256x4 .bf16) (x4 : Vec F S1x4 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2_kernel i arg0 harg0 arg1 harg1 arg2 harg2 arg3 harg3 arg4 harg4 arg5 harg5) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Regions

variable (m : (ℓ : Loc nD τ sig) → Buf (Elt F) ℓ) (ρ : Dev nD → PrngReg)

/-! ## The launches as segments -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
/-- Launch 0 over the thread state: entered with every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ) ]

theorem main_run (c : Dev nD) : main (F := F) c = Pipeline.Seg.run (segs m ρ) := (main_chain c).trans (by chain_rfl)

set_option backward.isDefEq.respectTransparency.types false in
/-- Every weakly fair execution of the program from `m` terminates, nothing faulting, with every unscoped buffer
    of every core at the contents followed through the program. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Fr

end
-- ==== Proof.KIArgs.lean ====
/-
  No host operation and no launch writes an argument array: a launch reads an argument through an operand
  window or not at all.  So the contents followed through the program, read at an argument's buffer, are the
  launch contents.
-/
import proofs.«117817_j14499809592003_2_alg».proof.Proof.KIData
import proofs.«117817_j14499809592003_2_alg».proof.Proof.Gen.KernelIdeal.Regions

set_option maxRecDepth 16384

noncomputable section

namespace Cert.KernelIdeal.Fr

open Cert.KernelIdeal
open Cert.KernelIdeal.Gen (hostOps0 hostOps1 hostOps2 hostOps0_W hostOps1_W hostOps2_W hostOps0_writes hostOps1_writes hostOps2_writes)
open Idealize.ShloMosaic Idealize.ShloMosaic.TcCoe Idealize.SL.Sem

variable {F : FTy → Type} [FloatOps F]
variable (m : (ℓ : Loc nD τ sig) → Buf (Elt F) ℓ) (ρ : Dev nD → PrngReg)

theorem W6_arg (c : Dev nD) (b : Ref sig .tc)
    (h2 : ∀ w, Pipeline.arrRef spec2 w ≠ b) (h1 : ∀ w, Pipeline.arrRef spec1 w ≠ b)
    (h0 : (∀ w, Pipeline.arrRef spec0 w ≠ b) ∨ b = Pipeline.arrRef spec0 0)
    (hw2 : b ∉ (hostOps2_W : List (Ref sig .tc))) (hw1 : b ∉ (hostOps1_W : List (Ref sig .tc))) (hw0 : b ∉ (hostOps0_W : List (Ref sig .tc))) :
    W6 m ρ c (Proc.devRef .tc b) = m ((c : Thread nD τ).loc b) := by
  rw [W6_of_ne m ρ c b h2]
  rw [show W5 m ρ c (Proc.devRef .tc b) = W4 m ρ c (Proc.devRef .tc b) from
    StableHlo.after_of_writes_sub hostOps2 _ hostOps2_writes hw2]
  rw [W4_of_ne m ρ c b h1]
  rw [show W3 m ρ c (Proc.devRef .tc b) = W2 m ρ c (Proc.devRef .tc b) from
    StableHlo.after_of_writes_sub hostOps1 _ hostOps1_writes hw1]
  have e2 : W2 m ρ c (Proc.devRef .tc b) = W1 m ρ c (Proc.devRef .tc b) := by
    rcases h0 with h0 | rfl
    · exact W2_of_ne m ρ c b h0
    · exact (W2_arr m ρ c 0).trans (((dat0 (V1 m ρ) c).arrAt_in 0 rfl _).trans (A_eq0 (V1 m ρ) c 0))
  rw [e2]
  exact StableHlo.after_of_writes_sub hostOps0 _ hostOps0_writes hw0

/-- A buffer no launch's window stages and no later stretch writes holds, before the last launch, what it held
    after the first stretch. -/
theorem W4_keep (c : Dev nD) (b : Ref sig .tc) (h1 : ∀ w, Pipeline.arrRef spec1 w ≠ b)
    (hw1 : b ∉ (hostOps1_W : List (Ref sig .tc))) (h0 : ∀ w, Pipeline.arrRef spec0 w ≠ b) :
    W4 m ρ c (Proc.devRef .tc b) = W1 m ρ c (Proc.devRef .tc b) := by
  rw [W4_of_ne m ρ c b h1]
  rw [show W3 m ρ c (Proc.devRef .tc b) = W2 m ρ c (Proc.devRef .tc b) from
    StableHlo.after_of_writes_sub hostOps1 _ hostOps1_writes hw1]
  exact W2_of_ne m ρ c b h0

/-- An argument holds its launch contents after the first stretch. -/
theorem W1_arg (c : Dev nD) (b : Ref sig .tc) (hw0 : b ∉ (hostOps0_W : List (Ref sig .tc))) :
    W1 m ρ c (Proc.devRef .tc b) = m ((c : Thread nD τ).loc b) :=
  StableHlo.after_of_writes_sub hostOps0 _ hostOps0_writes hw0

theorem W6_main_arg0 (c : Dev nD) : W6 m ρ c (Proc.devRef .tc main_arg0) = m ((c : Thread nD τ).loc main_arg0) :=
  W6_arg m ρ c main_arg0 (by decide) (by decide) (Or.inr rfl) (by decide) (by decide) (by decide)
theorem W6_main_arg1 (c : Dev nD) : W6 m ρ c (Proc.devRef .tc main_arg1) = m ((c : Thread nD τ).loc main_arg1) :=
  W6_arg m ρ c main_arg1 (by decide) (by decide) (Or.inl (by decide)) (by decide) (by decide) (by decide)
theorem W6_main_arg2 (c : Dev nD) : W6 m ρ c (Proc.devRef .tc main_arg2) = m ((c : Thread nD τ).loc main_arg2) :=
  W6_arg m ρ c main_arg2 (by decide) (by decide) (Or.inl (by decide)) (by decide) (by decide) (by decide)
theorem W6_main_arg3 (c : Dev nD) : W6 m ρ c (Proc.devRef .tc main_arg3) = m ((c : Thread nD τ).loc main_arg3) :=
  W6_arg m ρ c main_arg3 (by decide) (by decide) (Or.inl (by decide)) (by decide) (by decide) (by decide)
theorem W6_main_arg4 (c : Dev nD) : W6 m ρ c (Proc.devRef .tc main_arg4) = m ((c : Thread nD τ).loc main_arg4) :=
  W6_arg m ρ c main_arg4 (by decide) (by decide) (Or.inl (by decide)) (by decide) (by decide) (by decide)
theorem W6_main_arg5 (c : Dev nD) : W6 m ρ c (Proc.devRef .tc main_arg5) = m ((c : Thread nD τ).loc main_arg5) :=
  W6_arg m ρ c main_arg5 (by decide) (by decide) (Or.inl (by decide)) (by decide) (by decide) (by decide)
theorem W6_main_arg6 (c : Dev nD) : W6 m ρ c (Proc.devRef .tc main_arg6) = m ((c : Thread nD τ).loc main_arg6) :=
  W6_arg m ρ c main_arg6 (by decide) (by decide) (Or.inl (by decide)) (by decide) (by decide) (by decide)
theorem W6_main_arg7 (c : Dev nD) : W6 m ρ c (Proc.devRef .tc main_arg7) = m ((c : Thread nD τ).loc main_arg7) :=
  W6_arg m ρ c main_arg7 (by decide) (by decide) (Or.inl (by decide)) (by decide) (by decide) (by decide)
theorem W6_main_arg8 (c : Dev nD) : W6 m ρ c (Proc.devRef .tc main_arg8) = m ((c : Thread nD τ).loc main_arg8) :=
  W6_arg m ρ c main_arg8 (by decide) (by decide) (Or.inl (by decide)) (by decide) (by decide) (by decide)
theorem W6_main_arg9 (c : Dev nD) : W6 m ρ c (Proc.devRef .tc main_arg9) = m ((c : Thread nD τ).loc main_arg9) :=
  W6_arg m ρ c main_arg9 (by decide) (by decide) (Or.inl (by decide)) (by decide) (by decide) (by decide)
theorem W6_main_arg10 (c : Dev nD) : W6 m ρ c (Proc.devRef .tc main_arg10) = m ((c : Thread nD τ).loc main_arg10) :=
  W6_arg m ρ c main_arg10 (by decide) (by decide) (Or.inl (by decide)) (by decide) (by decide) (by decide)
theorem W6_main_arg11 (c : Dev nD) : W6 m ρ c (Proc.devRef .tc main_arg11) = m ((c : Thread nD τ).loc main_arg11) :=
  W6_arg m ρ c main_arg11 (by decide) (by decide) (Or.inl (by decide)) (by decide) (by decide) (by decide)
theorem W6_main_arg12 (c : Dev nD) : W6 m ρ c (Proc.devRef .tc main_arg12) = m ((c : Thread nD τ).loc main_arg12) :=
  W6_arg m ρ c main_arg12 (by decide) (by decide) (Or.inl (by decide)) (by decide) (by decide) (by decide)
theorem W6_main_arg13 (c : Dev nD) : W6 m ρ c (Proc.devRef .tc main_arg13) = m ((c : Thread nD τ).loc main_arg13) :=
  W6_arg m ρ c main_arg13 (by decide) (by decide) (Or.inl (by decide)) (by decide) (by decide) (by decide)
theorem W6_main_arg14 (c : Dev nD) : W6 m ρ c (Proc.devRef .tc main_arg14) = m ((c : Thread nD τ).loc main_arg14) :=
  W6_arg m ρ c main_arg14 (by decide) (by decide) (Or.inl (by decide)) (by decide) (by decide) (by decide)
theorem W6_main_arg15 (c : Dev nD) : W6 m ρ c (Proc.devRef .tc main_arg15) = m ((c : Thread nD τ).loc main_arg15) :=
  W6_arg m ρ c main_arg15 (by decide) (by decide) (Or.inl (by decide)) (by decide) (by decide) (by decide)
theorem W6_main_arg16 (c : Dev nD) : W6 m ρ c (Proc.devRef .tc main_arg16) = m ((c : Thread nD τ).loc main_arg16) :=
  W6_arg m ρ c main_arg16 (by decide) (by decide) (Or.inl (by decide)) (by decide) (by decide) (by decide)
theorem W6_main_arg17 (c : Dev nD) : W6 m ρ c (Proc.devRef .tc main_arg17) = m ((c : Thread nD τ).loc main_arg17) :=
  W6_arg m ρ c main_arg17 (by decide) (by decide) (Or.inl (by decide)) (by decide) (by decide) (by decide)
theorem W6_main_arg18 (c : Dev nD) : W6 m ρ c (Proc.devRef .tc main_arg18) = m ((c : Thread nD τ).loc main_arg18) :=
  W6_arg m ρ c main_arg18 (by decide) (by decide) (Or.inl (by decide)) (by decide) (by decide) (by decide)
theorem W6_main_arg19 (c : Dev nD) : W6 m ρ c (Proc.devRef .tc main_arg19) = m ((c : Thread nD τ).loc main_arg19) :=
  W6_arg m ρ c main_arg19 (by decide) (by decide) (Or.inl (by decide)) (by decide) (by decide) (by decide)
theorem W6_main_arg20 (c : Dev nD) : W6 m ρ c (Proc.devRef .tc main_arg20) = m ((c : Thread nD τ).loc main_arg20) :=
  W6_arg m ρ c main_arg20 (by decide) (by decide) (Or.inl (by decide)) (by decide) (by decide) (by decide)

end Cert.KernelIdeal.Fr

end
-- ==== Proof.Spec.lean ====
/-
  The arithmetic both programs compute, entry by entry, over the extended reals.

  `linAt x w b p q` is entry (p, q) of the product of the rows `x` with the columns `w` plus the bias row `b`:
  ∑ k, x(p,k)·w(k,q) + b(0,q).  `mlpAt` is entry (p, q) of the two-layer perceptron
  max(x·w₁ + b₁, 0)·w₂ + b₂.
-/
import Idealize.ShloMosaic.Lib.ValueIdx
import Idealize.ShloMosaic.PureOps.Ideal.Laws

noncomputable section

namespace Cert.Spec

open Idealize.ShloMosaic Idealize.ShloMosaic.ValueIdx
open scoped BigOperators

/-- Entry (p, q) of `x·w` plus the bias row. -/
def linAt {M K N : Nat} (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- The array of those entries. -/
def lin {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => linAt x w b (i 0) (i 1)

/-- The float zero both programs clamp at, as the literal they print. -/
abbrev zero32 : EReal := Ideal.ofBits .f32 0x00000000#32

/-- Entry (p, q) of `max(x·w₁ + b₁, 0)·w₂ + b₂`. -/
def mlpAt {M K H N : Nat} (x : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) (p : Fin M) (q : Fin N) : EReal :=
  (∑ h : Fin H, max (linAt x w1 b1 p h) zero32 * w2 (ix2 h q)) + b2 (ix2 (0 : Fin 1) q)

/-- The array of those entries. -/
def mlp {M K H N : Nat} (x : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) : (⟨2, ![M, N]⟩ : Shape).Idx → EReal :=
  fun i => mlpAt x w1 b1 w2 b2 (i 0) (i 1)

theorem lin_apply {M K N : Nat} (x : (⟨2, ![M, K]⟩ : Shape).Idx → EReal) (w : (⟨2, ![K, N]⟩ : Shape).Idx → EReal)
    (b : (⟨2, ![1, N]⟩ : Shape).Idx → EReal) (p : Fin M) (q : Fin N) : lin x w b (ix2 p q) = linAt x w b p q := rfl

theorem mlp_apply {M K H N : Nat} (x : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) (p : Fin M) (q : Fin N) : mlp x w1 b1 w2 b2 (ix2 p q) = mlpAt x w1 b1 w2 b2 p q := rfl

/-- An entry of `x·w + b` depends only on row `p` of `x`, column `q` of `w` and entry `q` of `b`. -/
theorem linAt_congr {M M' K N : Nat} (x : (⟨2, ![M, K]⟩ : Shape).Idx → EReal) (x' : (⟨2, ![M', K]⟩ : Shape).Idx → EReal)
    (w w' : (⟨2, ![K, N]⟩ : Shape).Idx → EReal) (b b' : (⟨2, ![1, N]⟩ : Shape).Idx → EReal)
    (p : Fin M) (p' : Fin M') (q q' : Fin N)
    (hx : ∀ k : Fin K, x (ix2 p k) = x' (ix2 p' k)) (hw : ∀ k : Fin K, w (ix2 k q) = w' (ix2 k q'))
    (hb : b (ix2 (0 : Fin 1) q) = b' (ix2 (0 : Fin 1) q')) :
    linAt x w b p q = linAt x' w' b' p' q' := by
  unfold linAt
  rw [hb]
  exact congrArg (· + _) (Finset.sum_congr rfl fun k _ => by rw [hx k, hw k])

/-- An entry of the perceptron depends only on row `p` of `x`, column `q` of `w₂` and entry `q` of `b₂`. -/
theorem mlpAt_congr {M M' K H N : Nat} (x : (⟨2, ![M, K]⟩ : Shape).Idx → EReal) (x' : (⟨2, ![M', K]⟩ : Shape).Idx → EReal)
    (w1 w1' : (⟨2, ![K, H]⟩ : Shape).Idx → EReal) (b1 b1' : (⟨2, ![1, H]⟩ : Shape).Idx → EReal)
    (w2 w2' : (⟨2, ![H, N]⟩ : Shape).Idx → EReal) (b2 b2' : (⟨2, ![1, N]⟩ : Shape).Idx → EReal)
    (p : Fin M) (p' : Fin M') (q q' : Fin N)
    (hx : ∀ k : Fin K, x (ix2 p k) = x' (ix2 p' k)) (hw1 : ∀ (k : Fin K) (h : Fin H), w1 (ix2 k h) = w1' (ix2 k h))
    (hb1 : ∀ h : Fin H, b1 (ix2 (0 : Fin 1) h) = b1' (ix2 (0 : Fin 1) h))
    (hw2 : ∀ h : Fin H, w2 (ix2 h q) = w2' (ix2 h q')) (hb2 : b2 (ix2 (0 : Fin 1) q) = b2' (ix2 (0 : Fin 1) q')) :
    mlpAt x w1 b1 w2 b2 p q = mlpAt x' w1' b1' w2' b2' p' q' := by
  unfold mlpAt
  rw [hb2]
  exact congrArg (· + _) (Finset.sum_congr rfl fun h _ => by
    rw [hw2 h, linAt_congr x x' w1 w1' b1 b1' p p' h h hx (fun k => hw1 k h) (hb1 h)])

end Cert.Spec

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.KIPay.lean ====
/-
  The body's arithmetic of each launch, read at one entry of the result block.

  The first two launches compute a block of rows of x·w plus a bias row broadcast over the rows; the third
  computes a block of rows of the two-layer perceptron max(x·w₁ + b₁, 0)·w₂ + b₂.  Over the extended reals the
  narrowing of a matrix product's operands is the identity and the product into a zero accumulator is the plain
  sum over the contracted index, so each entry is the specification's.
-/
import proofs.«117817_j14499809592003_2_alg».proof.Proof.Gen.KernelIdeal.Skeleton
import proofs.«117817_j14499809592003_2_alg».proof.Proof.Spec
import proofs.«117817_j14499809592003_2_alg».proof.Proof.LibPlainDot
import Idealize.ShloMosaic.Lib.Pipeline.Value
import Idealize.ShloMosaic.Lib.ValueLayout

noncomputable section

namespace Cert.KernelIdeal.Pay

open Cert.KernelIdeal Cert.KernelIdeal.Gen
open Idealize.ShloMosaic Idealize.ShloMosaic.ValueIdx
open scoped BigOperators

theorem pay0_apply (x0 : Vec Ideal S5000x4 .f32) (x1 : Vec Ideal S4x192 .f32) (x2 : Vec Ideal S1x192 .f32)
    (p : Fin 5000) (q : Fin 192) :
    k0_pay1 (F := Ideal) x0 x1 x2 (ix2 p q) = Cert.Spec.linAt x0 x1 x2 p q := by
  unfold k0_pay1 Cert.Spec.linAt
  rw [addf_apply, shapeCast_self, shapeCast_self, broadcastTo_1b_ab_apply]
  refine congrArg (· + _) ?_
  exact Cert.LibPlainDot.matmul_zero_apply dot_S5000x4_S4x192_S5000x192_1_0_0_1_n_n ⟨rfl, rfl, rfl, rfl, rfl, rfl⟩ none _ _ p q

theorem pay1_apply (x0 : Vec Ideal S5000x64 .f32) (x1 : Vec Ideal S64x192 .f32) (x2 : Vec Ideal S1x192 .f32)
    (p : Fin 5000) (q : Fin 192) :
    k1_pay1 (F := Ideal) x0 x1 x2 (ix2 p q) = Cert.Spec.linAt x0 x1 x2 p q := by
  unfold k1_pay1 Cert.Spec.linAt
  rw [addf_apply, shapeCast_self, shapeCast_self, shapeCast_self, broadcastTo_1b_ab_apply]
  refine congrArg (· + _) ?_
  exact Cert.LibPlainDot.matmul_zero_apply dot_S5000x64_S64x192_S5000x192_1_0_0_1_n_n ⟨rfl, rfl, rfl, rfl, rfl, rfl⟩ none _ _ p q

theorem pay2_apply (x0 : Vec Ideal S6400x128 .bf16) (x1 : Vec Ideal S128x256 .bf16) (x2 : Vec Ideal S1x256 .f32)
    (x3 : Vec Ideal S256x4 .bf16) (x4 : Vec Ideal S1x4 .f32) (p : Fin 6400) (q : Fin 4) :
    k2_pay1 (F := Ideal) x0 x1 x2 x3 x4 (ix2 p q) = Cert.Spec.mlpAt x0 x1 x2 x3 x4 p q := by
  unfold k2_pay1 Cert.Spec.mlpAt
  rw [addf_apply, shapeCast_self, shapeCast_self, shapeCast_self, shapeCast_self, shapeCast_self, broadcastTo_1b_ab_apply]
  refine congrArg (· + _) ?_
  refine (Cert.LibPlainDot.matmul_zero_apply (φ₁ := .bf16) (φ₂ := .bf16) dot_S6400x256_S256x4_S6400x4_1_0_0_1_n_n ⟨rfl, rfl, rfl, rfl, rfl, rfl⟩ none _ x3 p q).trans ?_
  refine Finset.sum_congr rfl fun h _ => ?_
  refine congrArg (· * _) ?_
  show max ((matmul (F := Ideal) dot_S6400x128_S128x256_S6400x256_1_0_0_1_n_n none x0 x1 (constant (F := Ideal) S6400x256 .f32 0x00000000#32) : FVec Ideal S6400x256 .f32) (ix2 p h)
      + (broadcastTo S6400x256 x2 broadcasts_S1x256_S6400x256 : FVec Ideal S6400x256 .f32) (ix2 p h)) Cert.Spec.zero32 = _
  refine congrArg (max · _) ?_
  exact congrArg₂ (· + ·)
    (Cert.LibPlainDot.matmul_zero_apply (φ₁ := .bf16) (φ₂ := .bf16) dot_S6400x128_S128x256_S6400x256_1_0_0_1_n_n ⟨rfl, rfl, rfl, rfl, rfl, rfl⟩ none x0 x1 p h)
    (broadcastTo_1b_ab_apply x2 broadcasts_S1x256_S6400x256 p h)

/-- The same at any index of the block. -/
theorem pay0_at (x0 : Vec Ideal S5000x4 .f32) (x1 : Vec Ideal S4x192 .f32) (x2 : Vec Ideal S1x192 .f32) (j : S5000x192.Idx) :
    k0_pay1 (F := Ideal) x0 x1 x2 j = Cert.Spec.linAt x0 x1 x2 (j 0) (j 1) :=
  (congrArg _ (eq_ix2 j)).trans (pay0_apply x0 x1 x2 (j 0) (j 1))

theorem pay1_at (x0 : Vec Ideal S5000x64 .f32) (x1 : Vec Ideal S64x192 .f32) (x2 : Vec Ideal S1x192 .f32) (j : S5000x192.Idx) :
    k1_pay1 (F := Ideal) x0 x1 x2 j = Cert.Spec.linAt x0 x1 x2 (j 0) (j 1) :=
  (congrArg _ (eq_ix2 j)).trans (pay1_apply x0 x1 x2 (j 0) (j 1))

theorem pay2_at (x0 : Vec Ideal S6400x128 .bf16) (x1 : Vec Ideal S128x256 .bf16) (x2 : Vec Ideal S1x256 .f32)
    (x3 : Vec Ideal S256x4 .bf16) (x4 : Vec Ideal S1x4 .f32) (j : S6400x4.Idx) :
    k2_pay1 (F := Ideal) x0 x1 x2 x3 x4 j = Cert.Spec.mlpAt x0 x1 x2 x3 x4 (j 0) (j 1) :=
  (congrArg _ (eq_ix2 j)).trans (pay2_apply x0 x1 x2 x3 x4 (j 0) (j 1))

end Cert.KernelIdeal.Pay

end
-- ==== Proof.KIArr.lean ====
/-
  From blocks to arrays: what each launch leaves in its result array.

  Point t of a launch reads rows [t·r, (t+1)·r) of the first operand and the small operands whole, and writes
  the same rows of the result; the blocks of rows tile the result array.  An entry of the result block is the
  specification's entry of the operand blocks, which depends only on that row of the first operand — so block t
  written back is block t of the specification applied to the whole arrays, and the result array ends at the
  specification of the arrays the launch was entered with.
-/
import proofs.«117817_j14499809592003_2_alg».proof.Proof.KIData
import proofs.«117817_j14499809592003_2_alg».proof.Proof.KIPay
import Idealize.ShloMosaic.Lib.Pipeline.Value

set_option maxRecDepth 16384

noncomputable section

namespace Cert.KernelIdeal.Arr

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Launch 0 -/

/-- The printed index maps over the grid: the first operand and the result move one block of rows per point, the
    small operands stay at their one block. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Operand window 0's block at point `t`, read at `y`: the array at row `t·5000 + y₀`. -/
theorem blk0_0 (c : Dev nD) (t : Fin cfg0.N) (y : S5000x4.Idx) (i : S50000x4.Idx)
    (h0 : (i 0).val = t.val * 5000 + (y 0).val) (h1 : (i 1).val = (y 1).val) :
    iblk0 V c 0 t y = V c main_arg0 i := by
  obtain ⟨e00, e01, e10, e11, e20, e21, eo0, eo1⟩ := idx0 t
  show V c main_arg0 (((cfg0.win 0).blk t).view.emb y) = V c main_arg0 i
  refine congrArg _ (funext fun a => Fin.ext ?_)
  match a with
  | ⟨0, _⟩ => show win0_0.index t (0 : Fin 2) * 5000 + 1 * (y 0).val = (i 0).val; rw [e00, h0]; omega
  | ⟨1, _⟩ => show win0_0.index t (1 : Fin 2) * 4 + 1 * (y 1).val = (i 1).val; rw [e01, h1]; omega

/-- Operand window 1's block at point `t`, read at `y`: the array at the same index. -/
theorem blk0_1 (c : Dev nD) (t : Fin cfg0.N) (y : S4x192.Idx) (i : S4x192.Idx)
    (h0 : (i 0).val = (y 0).val) (h1 : (i 1).val = (y 1).val) :
    iblk0 V c 1 t y = V c main_v5 i := by
  obtain ⟨e00, e01, e10, e11, e20, e21, eo0, eo1⟩ := idx0 t
  show V c main_v5 (((cfg0.win 1).blk t).view.emb y) = V c main_v5 i
  refine congrArg _ (funext fun a => Fin.ext ?_)
  match a with
  | ⟨0, _⟩ => show win0_1.index t (0 : Fin 2) * 4 + 1 * (y 0).val = (i 0).val; rw [e10, h0]; omega
  | ⟨1, _⟩ => show win0_1.index t (1 : Fin 2) * 192 + 1 * (y 1).val = (i 1).val; rw [e11, h1]; omega

/-- Operand window 2's block at point `t`, read at `y`: the array at the same index. -/
theorem blk0_2 (c : Dev nD) (t : Fin cfg0.N) (y : S1x192.Idx) (i : S1x192.Idx)
    (h0 : (i 0).val = (y 0).val) (h1 : (i 1).val = (y 1).val) :
    iblk0 V c 2 t y = V c main_v8 i := by
  obtain ⟨e00, e01, e10, e11, e20, e21, eo0, eo1⟩ := idx0 t
  show V c main_v8 (((cfg0.win 2).blk t).view.emb y) = V c main_v8 i
  refine congrArg _ (funext fun a => Fin.ext ?_)
  match a with
  | ⟨0, _⟩ => show win0_2.index t (0 : Fin 2) * 1 + 1 * (y 0).val = (i 0).val; rw [e20, h0]; omega
  | ⟨1, _⟩ => show win0_2.index t (1 : Fin 2) * 192 + 1 * (y 1).val = (i 1).val; rw [e21, h1]; omega

/-- What point `t` writes back is block `t` of the specification of the arrays the launch was entered with. -/
theorem flushed0_eq (c : Dev nD) (t : Fin cfg0.N) :
    (dat0 V c).flushed 3 t = ((cfg0.win 3).blk t).view.read (Elt Ideal) (Cert.Spec.lin (V c main_arg0) (V c main_v5) (V c main_v8)) := by
  show (cfg0.win 3).cut (grid0.coords t) ((dat0 V c).after 3 t) = _
  rw [after0_3]
  unfold out0_3
  rw [View.canon_unit_zero hz]
  simp only [View.ld_unit_zero (S := S5000x4) hz, View.ld_unit_zero (S := S4x192) hz, View.ld_unit_zero (S := S1x192) hz]
  obtain ⟨e00, e01, e10, e11, e20, e21, eo0, eo1⟩ := idx0 t
  funext j
  show k0_pay1 (F := Ideal) (iblk0 V c 0 t) (iblk0 V c 1 t) (iblk0 V c 2 t) j
    = Cert.Spec.lin (V c main_arg0) (V c main_v5) (V c main_v8) (((cfg0.win 3).blk t).view.emb j)
  refine (Cert.KernelIdeal.Pay.pay0_at _ _ _ j).trans ?_
  have hr : ((((cfg0.win 3).blk t).view.emb j) 0).val = t.val * 5000 + (j 0).val := by
    show win0_3.index t (0 : Fin 2) * 5000 + 1 * (j 0).val = _; rw [eo0]; omega
  have hc : ((((cfg0.win 3).blk t).view.emb j) 1).val = (j 1).val := by
    show win0_3.index t (1 : Fin 2) * 192 + 1 * (j 1).val = _; rw [eo1]; omega
  show Cert.Spec.linAt (M := 5000) (K := 4) (N := 192) (iblk0 V c 0 t) (iblk0 V c 1 t) (iblk0 V c 2 t) (j 0) (j 1)
    = Cert.Spec.linAt (M := 50000) (K := 4) (N := 192) (V c main_arg0) (V c main_v5) (V c main_v8) ((((cfg0.win 3).blk t).view.emb j) 0) ((((cfg0.win 3).blk t).view.emb j) 1)
  exact Cert.Spec.linAt_congr (M := 5000) (M' := 50000) (K := 4) (N := 192) (iblk0 V c 0 t) (V c main_arg0) (iblk0 V c 1 t) (V c main_v5)
    (iblk0 V c 2 t) (V c main_v8) (j 0) ((((cfg0.win 3).blk t).view.emb j) 0) (j 1) ((((cfg0.win 3).blk t).view.emb j) 1)
    (fun kk => blk0_0 V c t (ix2 (j 0) kk) (ix2 ((((cfg0.win 3).blk t).view.emb j) 0) kk) hr rfl)
    (fun kk => blk0_1 V c t (ix2 kk (j 1)) (ix2 kk ((((cfg0.win 3).blk t).view.emb j) 1)) rfl hc)
    (blk0_2 V c t (ix2 (0 : Fin 1) (j 1)) (ix2 (0 : Fin 1) ((((cfg0.win 3).blk t).view.emb j) 1)) rfl hc)

/-- An index of the result array is in point `t`'s block iff each coordinate is in the block's range. -/
theorem mem_blk0 (t : Fin cfg0.N) (i : S50000x192.Idx) :
    i ∈ ((cfg0.win 3).blk t).view.set ↔ ∀ a : Fin 2, win0_3.index t a * S5000x192.size a ≤ (i a).val ∧ (i a).val < win0_3.index t a * S5000x192.size a + S5000x192.size a := by
  show i ∈ ((View.whole main_v9).slice (win0_3.rect t)).set ↔ _
  rw [View.set_slice_whole, Rect.mem_set_unit]
  exact Iff.rfl

/-- The blocks of rows tile the result array: row `r` is in the block of point `r / 5000`. -/
theorem cover0 (i : S50000x192.Idx) : ∃ t : Fin cfg0.N, (cfg0.win 3).flush t = true ∧ i ∈ ((cfg0.win 3).blk t).view.set := by
  have hi0 : (i 0).val < 50000 := (i 0).isLt
  have hi1 : (i 1).val < 192 := (i 1).isLt
  have hN : cfg0.N = 10 := N_0
  refine ⟨⟨(i 0).val / 5000, by rw [hN]; omega⟩, flush0_3 _, ?_⟩
  rw [mem_blk0]
  obtain ⟨e00, e01, e10, e11, e20, e21, eo0, eo1⟩ := idx0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [eo0]; show (i 0).val / 5000 * 5000 ≤ (i 0).val ∧ (i 0).val < (i 0).val / 5000 * 5000 + 5000; omega
  | ⟨1, _⟩ => show win0_3.index _ (1 : Fin 2) * 192 ≤ (i 1).val ∧ (i 1).val < win0_3.index _ (1 : Fin 2) * 192 + 192; rw [eo1]; omega

/-- The result array after launch 0: the specification of the arrays the launch was entered with. -/
theorem final0 (c : Dev nD) : (dat0 V c).arrAt 3 cfg0.N = Cert.Spec.lin (V c main_arg0) (V c main_v5) (V c main_v8) :=
  (dat0 V c).arrAt_eq_of_cover 3 _ (fun t _ => flushed0_eq V c t) (cover0)

/-! ## Launch 1 -/

/-- The printed index maps over the grid: the first operand and the result move one block of rows per point, the
    small operands stay at their one block. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Operand window 0's block at point `t`, read at `y`: the array at row `t·5000 + y₀`. -/
theorem blk1_0 (c : Dev nD) (t : Fin cfg1.N) (y : S5000x64.Idx) (i : S50000x64.Idx)
    (h0 : (i 0).val = t.val * 5000 + (y 0).val) (h1 : (i 1).val = (y 1).val) :
    iblk1 V c 0 t y = V c main_v34 i := by
  obtain ⟨e00, e01, e10, e11, e20, e21, eo0, eo1⟩ := idx1 t
  show V c main_v34 (((cfg1.win 0).blk t).view.emb y) = V c main_v34 i
  refine congrArg _ (funext fun a => Fin.ext ?_)
  match a with
  | ⟨0, _⟩ => show win1_0.index t (0 : Fin 2) * 5000 + 1 * (y 0).val = (i 0).val; rw [e00, h0]; omega
  | ⟨1, _⟩ => show win1_0.index t (1 : Fin 2) * 64 + 1 * (y 1).val = (i 1).val; rw [e01, h1]; omega

/-- Operand window 1's block at point `t`, read at `y`: the array at the same index. -/
theorem blk1_1 (c : Dev nD) (t : Fin cfg1.N) (y : S64x192.Idx) (i : S64x192.Idx)
    (h0 : (i 0).val = (y 0).val) (h1 : (i 1).val = (y 1).val) :
    iblk1 V c 1 t y = V c main_v36 i := by
  obtain ⟨e00, e01, e10, e11, e20, e21, eo0, eo1⟩ := idx1 t
  show V c main_v36 (((cfg1.win 1).blk t).view.emb y) = V c main_v36 i
  refine congrArg _ (funext fun a => Fin.ext ?_)
  match a with
  | ⟨0, _⟩ => show win1_1.index t (0 : Fin 2) * 64 + 1 * (y 0).val = (i 0).val; rw [e10, h0]; omega
  | ⟨1, _⟩ => show win1_1.index t (1 : Fin 2) * 192 + 1 * (y 1).val = (i 1).val; rw [e11, h1]; omega

/-- Operand window 2's block at point `t`, read at `y`: the array at the same index. -/
theorem blk1_2 (c : Dev nD) (t : Fin cfg1.N) (y : S1x192.Idx) (i : S1x192.Idx)
    (h0 : (i 0).val = (y 0).val) (h1 : (i 1).val = (y 1).val) :
    iblk1 V c 2 t y = V c main_v39 i := by
  obtain ⟨e00, e01, e10, e11, e20, e21, eo0, eo1⟩ := idx1 t
  show V c main_v39 (((cfg1.win 2).blk t).view.emb y) = V c main_v39 i
  refine congrArg _ (funext fun a => Fin.ext ?_)
  match a with
  | ⟨0, _⟩ => show win1_2.index t (0 : Fin 2) * 1 + 1 * (y 0).val = (i 0).val; rw [e20, h0]; omega
  | ⟨1, _⟩ => show win1_2.index t (1 : Fin 2) * 192 + 1 * (y 1).val = (i 1).val; rw [e21, h1]; omega

/-- What point `t` writes back is block `t` of the specification of the arrays the launch was entered with. -/
theorem flushed1_eq (c : Dev nD) (t : Fin cfg1.N) :
    (dat1 V c).flushed 3 t = ((cfg1.win 3).blk t).view.read (Elt Ideal) (Cert.Spec.lin (V c main_v34) (V c main_v36) (V c main_v39)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x192) hz, View.ld_unit_zero (S := S1x192) hz]
  obtain ⟨e00, e01, e10, e11, e20, e21, eo0, eo1⟩ := idx1 t
  funext j
  show k1_pay1 (F := Ideal) (iblk1 V c 0 t) (iblk1 V c 1 t) (iblk1 V c 2 t) j
    = Cert.Spec.lin (V c main_v34) (V c main_v36) (V c main_v39) (((cfg1.win 3).blk t).view.emb j)
  refine (Cert.KernelIdeal.Pay.pay1_at _ _ _ j).trans ?_
  have hr : ((((cfg1.win 3).blk t).view.emb j) 0).val = t.val * 5000 + (j 0).val := by
    show win1_3.index t (0 : Fin 2) * 5000 + 1 * (j 0).val = _; rw [eo0]; omega
  have hc : ((((cfg1.win 3).blk t).view.emb j) 1).val = (j 1).val := by
    show win1_3.index t (1 : Fin 2) * 192 + 1 * (j 1).val = _; rw [eo1]; omega
  show Cert.Spec.linAt (M := 5000) (K := 64) (N := 192) (iblk1 V c 0 t) (iblk1 V c 1 t) (iblk1 V c 2 t) (j 0) (j 1)
    = Cert.Spec.linAt (M := 50000) (K := 64) (N := 192) (V c main_v34) (V c main_v36) (V c main_v39) ((((cfg1.win 3).blk t).view.emb j) 0) ((((cfg1.win 3).blk t).view.emb j) 1)
  exact Cert.Spec.linAt_congr (M := 5000) (M' := 50000) (K := 64) (N := 192) (iblk1 V c 0 t) (V c main_v34) (iblk1 V c 1 t) (V c main_v36)
    (iblk1 V c 2 t) (V c main_v39) (j 0) ((((cfg1.win 3).blk t).view.emb j) 0) (j 1) ((((cfg1.win 3).blk t).view.emb j) 1)
    (fun kk => blk1_0 V c t (ix2 (j 0) kk) (ix2 ((((cfg1.win 3).blk t).view.emb j) 0) kk) hr rfl)
    (fun kk => blk1_1 V c t (ix2 kk (j 1)) (ix2 kk ((((cfg1.win 3).blk t).view.emb j) 1)) rfl hc)
    (blk1_2 V c t (ix2 (0 : Fin 1) (j 1)) (ix2 (0 : Fin 1) ((((cfg1.win 3).blk t).view.emb j) 1)) rfl hc)

/-- An index of the result array is in point `t`'s block iff each coordinate is in the block's range. -/
theorem mem_blk1 (t : Fin cfg1.N) (i : S50000x192.Idx) :
    i ∈ ((cfg1.win 3).blk t).view.set ↔ ∀ a : Fin 2, win1_3.index t a * S5000x192.size a ≤ (i a).val ∧ (i a).val < win1_3.index t a * S5000x192.size a + S5000x192.size a := by
  show i ∈ ((View.whole main_v40).slice (win1_3.rect t)).set ↔ _
  rw [View.set_slice_whole, Rect.mem_set_unit]
  exact Iff.rfl

/-- The blocks of rows tile the result array: row `r` is in the block of point `r / 5000`. -/
theorem cover1 (i : S50000x192.Idx) : ∃ t : Fin cfg1.N, (cfg1.win 3).flush t = true ∧ i ∈ ((cfg1.win 3).blk t).view.set := by
  have hi0 : (i 0).val < 50000 := (i 0).isLt
  have hi1 : (i 1).val < 192 := (i 1).isLt
  have hN : cfg1.N = 10 := N_1
  refine ⟨⟨(i 0).val / 5000, by rw [hN]; omega⟩, flush1_3 _, ?_⟩
  rw [mem_blk1]
  obtain ⟨e00, e01, e10, e11, e20, e21, eo0, eo1⟩ := idx1 ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [eo0]; show (i 0).val / 5000 * 5000 ≤ (i 0).val ∧ (i 0).val < (i 0).val / 5000 * 5000 + 5000; omega
  | ⟨1, _⟩ => show win1_3.index _ (1 : Fin 2) * 192 ≤ (i 1).val ∧ (i 1).val < win1_3.index _ (1 : Fin 2) * 192 + 192; rw [eo1]; omega

/-- The result array after launch 1: the specification of the arrays the launch was entered with. -/
theorem final1 (c : Dev nD) : (dat1 V c).arrAt 3 cfg1.N = Cert.Spec.lin (V c main_v34) (V c main_v36) (V c main_v39) :=
  (dat1 V c).arrAt_eq_of_cover 3 _ (fun t _ => flushed1_eq V c t) (cover1)

/-! ## Launch 2 -/

/-- The printed index maps over the grid: the first operand and the result move one block of rows per point, the
    small operands stay at their one block. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Operand window 0's block at point `t`, read at `y`: the array at row `t·6400 + y₀`. -/
theorem blk2_0 (c : Dev nD) (t : Fin cfg2.N) (y : S6400x128.Idx) (i : S800000x128.Idx)
    (h0 : (i 0).val = t.val * 6400 + (y 0).val) (h1 : (i 1).val = (y 1).val) :
    iblk2 V c 0 t y = V c main_v81 i := by
  obtain ⟨e00, e01, e10, e11, e20, e21, e30, e31, e40, e41, eo0, eo1⟩ := idx2 t
  show V c main_v81 (((cfg2.win 0).blk t).view.emb y) = V c main_v81 i
  refine congrArg _ (funext fun a => Fin.ext ?_)
  match a with
  | ⟨0, _⟩ => show win2_0.index t (0 : Fin 2) * 6400 + 1 * (y 0).val = (i 0).val; rw [e00, h0]; omega
  | ⟨1, _⟩ => show win2_0.index t (1 : Fin 2) * 128 + 1 * (y 1).val = (i 1).val; rw [e01, h1]; omega

/-- Operand window 1's block at point `t`, read at `y`: the array at the same index. -/
theorem blk2_1 (c : Dev nD) (t : Fin cfg2.N) (y : S128x256.Idx) (i : S128x256.Idx)
    (h0 : (i 0).val = (y 0).val) (h1 : (i 1).val = (y 1).val) :
    iblk2 V c 1 t y = V c main_v83 i := by
  obtain ⟨e00, e01, e10, e11, e20, e21, e30, e31, e40, e41, eo0, eo1⟩ := idx2 t
  show V c main_v83 (((cfg2.win 1).blk t).view.emb y) = V c main_v83 i
  refine congrArg _ (funext fun a => Fin.ext ?_)
  match a with
  | ⟨0, _⟩ => show win2_1.index t (0 : Fin 2) * 128 + 1 * (y 0).val = (i 0).val; rw [e10, h0]; omega
  | ⟨1, _⟩ => show win2_1.index t (1 : Fin 2) * 256 + 1 * (y 1).val = (i 1).val; rw [e11, h1]; omega

/-- Operand window 2's block at point `t`, read at `y`: the array at the same index. -/
theorem blk2_2 (c : Dev nD) (t : Fin cfg2.N) (y : S1x256.Idx) (i : S1x256.Idx)
    (h0 : (i 0).val = (y 0).val) (h1 : (i 1).val = (y 1).val) :
    iblk2 V c 2 t y = V c main_v86 i := by
  obtain ⟨e00, e01, e10, e11, e20, e21, e30, e31, e40, e41, eo0, eo1⟩ := idx2 t
  show V c main_v86 (((cfg2.win 2).blk t).view.emb y) = V c main_v86 i
  refine congrArg _ (funext fun a => Fin.ext ?_)
  match a with
  | ⟨0, _⟩ => show win2_2.index t (0 : Fin 2) * 1 + 1 * (y 0).val = (i 0).val; rw [e20, h0]; omega
  | ⟨1, _⟩ => show win2_2.index t (1 : Fin 2) * 256 + 1 * (y 1).val = (i 1).val; rw [e21, h1]; omega

/-- Operand window 3's block at point `t`, read at `y`: the array at the same index. -/
theorem blk2_3 (c : Dev nD) (t : Fin cfg2.N) (y : S256x4.Idx) (i : S256x4.Idx)
    (h0 : (i 0).val = (y 0).val) (h1 : (i 1).val = (y 1).val) :
    iblk2 V c 3 t y = V c main_v85 i := by
  obtain ⟨e00, e01, e10, e11, e20, e21, e30, e31, e40, e41, eo0, eo1⟩ := idx2 t
  show V c main_v85 (((cfg2.win 3).blk t).view.emb y) = V c main_v85 i
  refine congrArg _ (funext fun a => Fin.ext ?_)
  match a with
  | ⟨0, _⟩ => show win2_3.index t (0 : Fin 2) * 256 + 1 * (y 0).val = (i 0).val; rw [e30, h0]; omega
  | ⟨1, _⟩ => show win2_3.index t (1 : Fin 2) * 4 + 1 * (y 1).val = (i 1).val; rw [e31, h1]; omega

/-- Operand window 4's block at point `t`, read at `y`: the array at the same index. -/
theorem blk2_4 (c : Dev nD) (t : Fin cfg2.N) (y : S1x4.Idx) (i : S1x4.Idx)
    (h0 : (i 0).val = (y 0).val) (h1 : (i 1).val = (y 1).val) :
    iblk2 V c 4 t y = V c main_v87 i := by
  obtain ⟨e00, e01, e10, e11, e20, e21, e30, e31, e40, e41, eo0, eo1⟩ := idx2 t
  show V c main_v87 (((cfg2.win 4).blk t).view.emb y) = V c main_v87 i
  refine congrArg _ (funext fun a => Fin.ext ?_)
  match a with
  | ⟨0, _⟩ => show win2_4.index t (0 : Fin 2) * 1 + 1 * (y 0).val = (i 0).val; rw [e40, h0]; omega
  | ⟨1, _⟩ => show win2_4.index t (1 : Fin 2) * 4 + 1 * (y 1).val = (i 1).val; rw [e41, h1]; omega

/-- What point `t` writes back is block `t` of the specification of the arrays the launch was entered with. -/
theorem flushed2_eq (c : Dev nD) (t : Fin cfg2.N) :
    (dat2 V c).flushed 5 t = ((cfg2.win 5).blk t).view.read (Elt Ideal) (Cert.Spec.mlp (V c main_v81) (V c main_v83) (V c main_v86) (V c main_v85) (V c main_v87)) := by
  show (cfg2.win 5).cut (grid2.coords t) ((dat2 V c).after 5 t) = _
  rw [after2_5]
  unfold out2_5
  rw [View.canon_unit_zero hz]
  simp only [View.ld_unit_zero (S := S6400x128) hz, View.ld_unit_zero (S := S128x256) hz, View.ld_unit_zero (S := S1x256) hz, View.ld_unit_zero (S := S256x4) hz, View.ld_unit_zero (S := S1x4) hz]
  obtain ⟨e00, e01, e10, e11, e20, e21, e30, e31, e40, e41, eo0, eo1⟩ := idx2 t
  funext j
  show k2_pay1 (F := Ideal) (iblk2 V c 0 t) (iblk2 V c 1 t) (iblk2 V c 2 t) (iblk2 V c 3 t) (iblk2 V c 4 t) j
    = Cert.Spec.mlp (V c main_v81) (V c main_v83) (V c main_v86) (V c main_v85) (V c main_v87) (((cfg2.win 5).blk t).view.emb j)
  refine (Cert.KernelIdeal.Pay.pay2_at _ _ _ _ _ j).trans ?_
  have hr : ((((cfg2.win 5).blk t).view.emb j) 0).val = t.val * 6400 + (j 0).val := by
    show win2_5.index t (0 : Fin 2) * 6400 + 1 * (j 0).val = _; rw [eo0]; omega
  have hc : ((((cfg2.win 5).blk t).view.emb j) 1).val = (j 1).val := by
    show win2_5.index t (1 : Fin 2) * 4 + 1 * (j 1).val = _; rw [eo1]; omega
  show Cert.Spec.mlpAt (M := 6400) (K := 128) (H := 256) (N := 4) (iblk2 V c 0 t) (iblk2 V c 1 t) (iblk2 V c 2 t) (iblk2 V c 3 t) (iblk2 V c 4 t) (j 0) (j 1)
    = Cert.Spec.mlpAt (M := 800000) (K := 128) (H := 256) (N := 4) (V c main_v81) (V c main_v83) (V c main_v86) (V c main_v85) (V c main_v87) ((((cfg2.win 5).blk t).view.emb j) 0) ((((cfg2.win 5).blk t).view.emb j) 1)
  exact Cert.Spec.mlpAt_congr (M := 6400) (M' := 800000) (K := 128) (H := 256) (N := 4) (iblk2 V c 0 t) (V c main_v81) (iblk2 V c 1 t) (V c main_v83)
    (iblk2 V c 2 t) (V c main_v86) (iblk2 V c 3 t) (V c main_v85) (iblk2 V c 4 t) (V c main_v87) (j 0) ((((cfg2.win 5).blk t).view.emb j) 0) (j 1) ((((cfg2.win 5).blk t).view.emb j) 1)
    (fun kk => blk2_0 V c t (ix2 (j 0) kk) (ix2 ((((cfg2.win 5).blk t).view.emb j) 0) kk) hr rfl)
    (fun kk hh => blk2_1 V c t (ix2 kk hh) (ix2 kk hh) rfl rfl)
    (fun hh => blk2_2 V c t (ix2 (0 : Fin 1) hh) (ix2 (0 : Fin 1) hh) rfl rfl)
    (fun hh => blk2_3 V c t (ix2 hh (j 1)) (ix2 hh ((((cfg2.win 5).blk t).view.emb j) 1)) rfl hc)
    (blk2_4 V c t (ix2 (0 : Fin 1) (j 1)) (ix2 (0 : Fin 1) ((((cfg2.win 5).blk t).view.emb j) 1)) rfl hc)

/-- An index of the result array is in point `t`'s block iff each coordinate is in the block's range. -/
theorem mem_blk2 (t : Fin cfg2.N) (i : S800000x4.Idx) :
    i ∈ ((cfg2.win 5).blk t).view.set ↔ ∀ a : Fin 2, win2_5.index t a * S6400x4.size a ≤ (i a).val ∧ (i a).val < win2_5.index t a * S6400x4.size a + S6400x4.size a := by
  show i ∈ ((View.whole main_v88).slice (win2_5.rect t)).set ↔ _
  rw [View.set_slice_whole, Rect.mem_set_unit]
  exact Iff.rfl

/-- The blocks of rows tile the result array: row `r` is in the block of point `r / 6400`. -/
theorem cover2 (i : S800000x4.Idx) : ∃ t : Fin cfg2.N, (cfg2.win 5).flush t = true ∧ i ∈ ((cfg2.win 5).blk t).view.set := by
  have hi0 : (i 0).val < 800000 := (i 0).isLt
  have hi1 : (i 1).val < 4 := (i 1).isLt
  have hN : cfg2.N = 125 := N_2
  refine ⟨⟨(i 0).val / 6400, by rw [hN]; omega⟩, flush2_5 _, ?_⟩
  rw [mem_blk2]
  obtain ⟨e00, e01, e10, e11, e20, e21, e30, e31, e40, e41, eo0, eo1⟩ := idx2 ⟨(i 0).val / 6400, by rw [hN]; omega⟩
  intro a
  match a with
  | ⟨0, _⟩ => show win2_5.index _ (0 : Fin 2) * 6400 ≤ (i 0).val ∧ (i 0).val < win2_5.index _ (0 : Fin 2) * 6400 + 6400; rw [eo0]; show (i 0).val / 6400 * 6400 ≤ (i 0).val ∧ (i 0).val < (i 0).val / 6400 * 6400 + 6400; omega
  | ⟨1, _⟩ => show win2_5.index _ (1 : Fin 2) * 4 ≤ (i 1).val ∧ (i 1).val < win2_5.index _ (1 : Fin 2) * 4 + 4; rw [eo1]; omega

/-- The result array after launch 2: the specification of the arrays the launch was entered with. -/
theorem final2 (c : Dev nD) : (dat2 V c).arrAt 5 cfg2.N = Cert.Spec.mlp (V c main_v81) (V c main_v83) (V c main_v86) (V c main_v85) (V c main_v87) :=
  (dat2 V c).arrAt_eq_of_cover 5 _ (fun t _ => flushed2_eq V c t) (cover2)

end Cert.KernelIdeal.Arr

end
-- ==== Proof.KIHost.lean ====
/-
  The stretches of host operations between the launches, read at the buffers the launches and the result take.

  Before the first launch the three weight matrices of layer one are stacked and transposed, its biases stacked
  into a row (with a zero block in the middle), and the two rows of the edge list are cut out.  Between the
  launches the stacked product is cut into its three bands a, b, c and the layer's output is formed: each edge
  (s, d) with weight w contributes w·(a[s] − b[d]) to row d, and c is added (`layerOut`); the next layer's weights
  are stacked in the same way.  Before the last launch every edge's two endpoint rows of the second layer's output
  are put side by side, and the perceptron's weights transposed.
-/
import proofs.«117817_j14499809592003_2_alg».proof.Proof.Gen.KernelIdeal.Launch
import Idealize.ShloMosaic.Lib.StableHlo.Run

set_option maxRecDepth 16384

noncomputable section

namespace Cert.KernelIdeal.Hst

open Cert.KernelIdeal Cert.KernelIdeal.Gen
open Idealize.ShloMosaic Idealize.ShloMosaic.TcCoe Idealize.SL.Sem Idealize.ShloMosaic.StableHlo

variable {F : FTy → Type} [FloatOps F]

/-- A three-operand host operation's result with each operand's contents at its own buffer. -/
theorem nary3_result' {x a b y : Ref sig .tc}
    (f : ((k : Fin 3) → ((![x, a, b] : Fin 3 → Ref sig .tc) k).ty.Contents (Elt F)) → y.ty.Contents (Elt F)) (hxs hy)
    (W : Valuation τ sig (Elt F)) :
    (StableHlo.nary (τ := τ) ![x, a, b] y f hxs hy).result W (no_index (Proc.devRef .tc y))
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

/-- Every operation's result at its own buffer, and what it leaves elsewhere, in one pass. -/
macro "host_results" : tactic =>
  `(tactic| (simp (disch := decide) only [StableHlo.after_cons, StableHlo.after_nil, nary3_result',
      StableHlo.nullary_result', StableHlo.unary_result', StableHlo.binary_result', StableHlo.ternary_result',
      StableHlo.quaternary_result', StableHlo.reshape_result', StableHlo.nary_result',
      StableHlo.nullary_result_ne', StableHlo.unary_result_ne', StableHlo.binary_result_ne', StableHlo.ternary_result_ne',
      StableHlo.quaternary_result_ne', StableHlo.reshape_result_ne', StableHlo.nary_result_ne']))

/-! ## The pieces -/

/-- Row 0 of the edge list: the source node of every edge. -/
def srcOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000
/-- Row 1 of the edge list: the destination node of every edge. -/
def dstOf (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- Node indices as a column, a negative index counted from the end. -/
def idxCol (e : (⟨S800000, .i32⟩ : BufTy).Contents (Elt F)) : (⟨S800000x1, .i32⟩ : BufTy).Contents (Elt F) :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- The neighbourhood sum: row d collects w·(a[s] − b[d]) over the edges (s, d) of weight w. -/
def aggr (a b : (⟨S50000x64, .f32⟩ : BufTy).Contents (Elt F)) (src dst : (⟨S800000, .i32⟩ : BufTy).Contents (Elt F))
    (ew : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (subf (Host.gather gather_S50000x64_S800000x1_S800000x64_1_0_n_n_0_1_164 a (idxCol src))
        (Host.gather gather_S50000x64_S800000x1_S800000x64_1_0_n_n_0_1_164 b (idxCol dst)))
      (broadcastInDim S800000x64 ![0, 1] bcast_S800000x1_S800000x64_0_1 (broadcastInDim S800000x1 ![0] bcast_S800000_S800000x1_0 ew)))

/-- A layer's output from its stacked product: the neighbourhood sum of the first two bands plus the third. -/
def layerOut (abc : (⟨S50000x192, .f32⟩ : BufTy).Contents (Elt F)) (src dst : (⟨S800000, .i32⟩ : BufTy).Contents (Elt F))
    (ew : (⟨S800000, .f32⟩ : BufTy).Contents (Elt F)) : (⟨S50000x64, .f32⟩ : BufTy).Contents (Elt F) :=
  addf
    (aggr (extractStridedSlice S50000x64 ![0, 0] abc slices_S50000x192_S50000x64_0_0)
      (extractStridedSlice S50000x64 ![0, 64] abc slices_S50000x192_S50000x64_0_64) src dst ew)
    (extractStridedSlice S50000x64 ![0, 128] abc slices_S50000x192_S50000x64_0_128)

/-- The stacked biases of a layer as one row: b₁, a zero block, b₃. -/
def biasRow (b1 b3 : (⟨S64, .f32⟩ : BufTy).Contents (Elt F)) : (⟨S1x192, .f32⟩ : BufTy).Contents (Elt F) :=
  shapeCast S1x192 (concatenate S192 0 [⟨S64, b1⟩, ⟨S64, broadcastInDim S64 ![] bcast_S_S64 (constant S_ .f32 0x00000000#32)⟩, ⟨S64, b3⟩]
    concatenates_S64_S64_S64_S192_d0) shapeCasts_S192_S1x192

/-- Layer one's three weight matrices stacked and transposed: one [4, 192] matrix. -/
def stackT1 (w1 w2 w3 : (⟨S64x4, .f32⟩ : BufTy).Contents (Elt F)) : (⟨S4x192, .f32⟩ : BufTy).Contents (Elt F) :=
  transpose S4x192 [1, 0] (concatenate S192x4 0 [⟨S64x4, w1⟩, ⟨S64x4, w2⟩, ⟨S64x4, w3⟩]
    concatenates_S64x4_S64x4_S64x4_S192x4_d0) transposes_S192x4_S4x192_1_0

/-- Layer two's three weight matrices stacked and transposed: one [64, 192] matrix. -/
def stackT2 (w1 w2 w3 : (⟨S64x64, .f32⟩ : BufTy).Contents (Elt F)) : (⟨S64x192, .f32⟩ : BufTy).Contents (Elt F) :=
  transpose S64x192 [1, 0] (concatenate S192x64 0 [⟨S64x64, w1⟩, ⟨S64x64, w2⟩, ⟨S64x64, w3⟩]
    concatenates_S64x64_S64x64_S64x64_S192x64_d0) transposes_S192x64_S64x192_1_0

/-- Every edge's two endpoint rows of `q`, side by side. -/
def edgeRep (q : (⟨S50000x64, .f32⟩ : BufTy).Contents (Elt F)) (src dst : (⟨S800000, .i32⟩ : BufTy).Contents (Elt F)) :
    (⟨S800000x128, .bf16⟩ : BufTy).Contents (Elt F) :=
  concatenate S800000x128 1
    [⟨S800000x64, Host.gather gather_S50000x64_S800000x1_S800000x64_1_0_n_n_0_1_164 (truncf .bf16 q bitsLt_bf16_f32) (idxCol src)⟩,
     ⟨S800000x64, Host.gather gather_S50000x64_S800000x1_S800000x64_1_0_n_n_0_1_164 (truncf .bf16 q bitsLt_bf16_f32) (idxCol dst)⟩]
    concatenates_S800000x64_S800000x64_S800000x128_d1

variable (W : Valuation τ sig (Elt F))

/-! ## Before the first launch -/

theorem host0_v5 : StableHlo.after (hostOps0 (F := F)) W (Proc.devRef .tc main_v5)
    = stackT1 (W (Proc.devRef .tc main_arg3)) (W (Proc.devRef .tc main_arg5)) (W (Proc.devRef .tc main_arg6)) := by
  host_results; rfl

theorem host0_v8 : StableHlo.after (hostOps0 (F := F)) W (Proc.devRef .tc main_v8)
    = biasRow (W (Proc.devRef .tc main_arg4)) (W (Proc.devRef .tc main_arg7)) := by
  host_results; rfl

theorem host0_v1 : StableHlo.after (hostOps0 (F := F)) W (Proc.devRef .tc main_v1) = srcOf (W (Proc.devRef .tc main_arg1)) := by
  host_results; rfl

theorem host0_v3 : StableHlo.after (hostOps0 (F := F)) W (Proc.devRef .tc main_v3) = dstOf (W (Proc.devRef .tc main_arg1)) := by
  host_results; rfl

/-! ## Between the first two launches -/

theorem host1_v34 : StableHlo.after (hostOps1 (F := F)) W (Proc.devRef .tc main_v34)
    = layerOut (W (Proc.devRef .tc main_v9)) (W (Proc.devRef .tc main_v1)) (W (Proc.devRef .tc main_v3)) (W (Proc.devRef .tc main_arg2)) := by
  host_results; rfl

theorem host1_v36 : StableHlo.after (hostOps1 (F := F)) W (Proc.devRef .tc main_v36)
    = stackT2 (W (Proc.devRef .tc main_arg8)) (W (Proc.devRef .tc main_arg10)) (W (Proc.devRef .tc main_arg11)) := by
  host_results; rfl

theorem host1_v39 : StableHlo.after (hostOps1 (F := F)) W (Proc.devRef .tc main_v39)
    = biasRow (W (Proc.devRef .tc main_arg9)) (W (Proc.devRef .tc main_arg12)) := by
  host_results; rfl

/-! ## Before the last launch -/

set_option maxHeartbeats 4000000 in
theorem host2_v81 : StableHlo.after (hostOps2 (F := F)) W (Proc.devRef .tc main_v81)
    = edgeRep (layerOut (W (Proc.devRef .tc main_v40)) (W (Proc.devRef .tc main_v1)) (W (Proc.devRef .tc main_v3)) (W (Proc.devRef .tc main_arg2)))
        (W (Proc.devRef .tc main_v1)) (W (Proc.devRef .tc main_v3)) := by
  simp (disch := decide) only [StableHlo.after_cons, StableHlo.after_nil, StableHlo.nullary_result_ne', StableHlo.unary_result_ne',
    StableHlo.binary_result_ne', StableHlo.ternary_result_ne', StableHlo.reshape_result_ne']
  refine (StableHlo.binary_result _ _ _ _ _ _ _ _).trans ?_
  unfold edgeRep
  refine congrArg₂ (fun a b => concatenate S800000x128 1 [⟨S800000x64, a⟩, ⟨S800000x64, b⟩] concatenates_S800000x64_S800000x64_S800000x128_d1) ?_ ?_
  · host_results; rfl
  · host_results; rfl

theorem host2_v83 : StableHlo.after (hostOps2 (F := F)) W (Proc.devRef .tc main_v83)
    = truncf .bf16 (transpose S128x256 [1, 0] (W (Proc.devRef .tc main_arg13)) transposes_S256x128_S128x256_1_0) bitsLt_bf16_f32 := by
  host_results

theorem host2_v85 : StableHlo.after (hostOps2 (F := F)) W (Proc.devRef .tc main_v85)
    = truncf .bf16 (transpose S256x4 [1, 0] (W (Proc.devRef .tc main_arg15)) transposes_S4x256_S256x4_1_0) bitsLt_bf16_f32 := by
  host_results

theorem host2_v86 : StableHlo.after (hostOps2 (F := F)) W (Proc.devRef .tc main_v86)
    = shapeCast S1x256 (W (Proc.devRef .tc main_arg14)) shapeCasts_S256_S1x256 := by
  host_results; rfl

theorem host2_v87 : StableHlo.after (hostOps2 (F := F)) W (Proc.devRef .tc main_v87)
    = shapeCast S1x4 (W (Proc.devRef .tc main_arg16)) shapeCasts_S4_S1x4 := by
  host_results; rfl

end Cert.KernelIdeal.Hst

end
-- ==== Proof.KIValue.lean ====
/-
  The value the program leaves in its result array, as one function of the argument arrays.

  Followed through the program: the first launch leaves the stacked product of the node features with layer
  one's weights; the host operations turn it into layer one's output q₁; the second launch and the next stretch
  do the same from q₁ with layer two's weights, giving q₂; the last launch applies the perceptron to every
  edge's two endpoint rows of q₂.
-/
import proofs.«117817_j14499809592003_2_alg».proof.Proof.KIArr
import proofs.«117817_j14499809592003_2_alg».proof.Proof.KIHost
import proofs.«117817_j14499809592003_2_alg».proof.Proof.KIArgs

set_option maxRecDepth 16384

noncomputable section

namespace Cert.KernelIdeal.Val

open Cert.KernelIdeal Cert.KernelIdeal.Fr Cert.KernelIdeal.Hst
open Cert.KernelIdeal.Gen (transposes_S256x128_S128x256_1_0 transposes_S4x256_S256x4_1_0 bitsLt_bf16_f32 shapeCasts_S256_S1x256 shapeCasts_S4_S1x4)
open Idealize.ShloMosaic Idealize.ShloMosaic.TcCoe Idealize.SL.Sem

variable (m : (ℓ : Loc nD τ sig) → Buf (Elt Ideal) ℓ) (ρ : Dev nD → PrngReg) (c : Dev nD)

/-- The perceptron's first weight matrix, transposed (and narrowed, which changes nothing here). -/
def wT1 (a : (⟨S256x128, .f32⟩ : BufTy).Contents (Elt Ideal)) : (⟨S128x256, .bf16⟩ : BufTy).Contents (Elt Ideal) :=
  truncf (F := Ideal) .bf16 (transpose S128x256 [1, 0] a transposes_S256x128_S128x256_1_0) bitsLt_bf16_f32
/-- The perceptron's second weight matrix, transposed. -/
def wT2 (a : (⟨S4x256, .f32⟩ : BufTy).Contents (Elt Ideal)) : (⟨S256x4, .bf16⟩ : BufTy).Contents (Elt Ideal) :=
  truncf (F := Ideal) .bf16 (transpose S256x4 [1, 0] a transposes_S4x256_S256x4_1_0) bitsLt_bf16_f32

/-- Layer one's output. -/
def q1 : (⟨S50000x64, .f32⟩ : BufTy).Contents (Elt Ideal) :=
  layerOut (Cert.Spec.lin (m ((c : Thread nD τ).loc main_arg0)) (stackT1 (m ((c : Thread nD τ).loc main_arg3)) (m ((c : Thread nD τ).loc main_arg5)) (m ((c : Thread nD τ).loc main_arg6))) (biasRow (m ((c : Thread nD τ).loc main_arg4)) (m ((c : Thread nD τ).loc main_arg7))))
    (srcOf (m ((c : Thread nD τ).loc main_arg1))) (dstOf (m ((c : Thread nD τ).loc main_arg1))) (m ((c : Thread nD τ).loc main_arg2))

/-- Layer two's output. -/
def q2 : (⟨S50000x64, .f32⟩ : BufTy).Contents (Elt Ideal) :=
  layerOut (Cert.Spec.lin (q1 m c) (stackT2 (m ((c : Thread nD τ).loc main_arg8)) (m ((c : Thread nD τ).loc main_arg10)) (m ((c : Thread nD τ).loc main_arg11))) (biasRow (m ((c : Thread nD τ).loc main_arg9)) (m ((c : Thread nD τ).loc main_arg12))))
    (srcOf (m ((c : Thread nD τ).loc main_arg1))) (dstOf (m ((c : Thread nD τ).loc main_arg1))) (m ((c : Thread nD τ).loc main_arg2))

/-- The result: the perceptron of every edge's two endpoint rows of layer two's output. -/
def out : (⟨S800000x4, .f32⟩ : BufTy).Contents (Elt Ideal) :=
  Cert.Spec.mlp (edgeRep (q2 m c) (srcOf (m ((c : Thread nD τ).loc main_arg1))) (dstOf (m ((c : Thread nD τ).loc main_arg1))))
    (wT1 (m ((c : Thread nD τ).loc main_arg13)))
    (shapeCast S1x256 (m ((c : Thread nD τ).loc main_arg14)) shapeCasts_S256_S1x256)
    (wT2 (m ((c : Thread nD τ).loc main_arg15)))
    (shapeCast S1x4 (m ((c : Thread nD τ).loc main_arg16)) shapeCasts_S4_S1x4)

/-! ## After the first stretch -/

theorem V1_arg (b : Ref sig .tc) (hb : b ∉ (Cert.KernelIdeal.Gen.hostOps0_W : List (Ref sig .tc))) :
    V1 m ρ c b = m ((c : Thread nD τ).loc b) := W1_arg m ρ c b hb
theorem V1_v5 : V1 m ρ c main_v5 = stackT1 (m ((c : Thread nD τ).loc main_arg3)) (m ((c : Thread nD τ).loc main_arg5)) (m ((c : Thread nD τ).loc main_arg6)) := host0_v5 (W0 m ρ c)
theorem V1_v8 : V1 m ρ c main_v8 = biasRow (m ((c : Thread nD τ).loc main_arg4)) (m ((c : Thread nD τ).loc main_arg7)) := host0_v8 (W0 m ρ c)
theorem V1_v1 : V1 m ρ c main_v1 = srcOf (m ((c : Thread nD τ).loc main_arg1)) := host0_v1 (W0 m ρ c)
theorem V1_v3 : V1 m ρ c main_v3 = dstOf (m ((c : Thread nD τ).loc main_arg1)) := host0_v3 (W0 m ρ c)

/-! ## After the first launch -/

theorem V2_v9 : V2 m ρ c main_v9
    = Cert.Spec.lin (m ((c : Thread nD τ).loc main_arg0)) (stackT1 (m ((c : Thread nD τ).loc main_arg3)) (m ((c : Thread nD τ).loc main_arg5)) (m ((c : Thread nD τ).loc main_arg6))) (biasRow (m ((c : Thread nD τ).loc main_arg4)) (m ((c : Thread nD τ).loc main_arg7))) := by
  refine (W2_arr m ρ c 3).trans ((Cert.KernelIdeal.Arr.final0 (V1 m ρ) c).trans ?_)
  rw [V1_arg m ρ c main_arg0 (by decide), V1_v5, V1_v8]
theorem V2_keep (b : Ref sig .tc) (h0 : ∀ w, Pipeline.arrRef spec0 w ≠ b) : V2 m ρ c b = V1 m ρ c b := W2_of_ne m ρ c b h0

/-! ## After the second stretch -/

theorem V3_v34 : V3 m ρ c main_v34 = q1 m c := by
  refine (host1_v34 (W2 m ρ c)).trans ?_
  show layerOut (V2 m ρ c main_v9) (V2 m ρ c main_v1) (V2 m ρ c main_v3) (V2 m ρ c main_arg2) = _
  rw [V2_v9, V2_keep m ρ c main_v1 (by decide), V2_keep m ρ c main_v3 (by decide), V2_keep m ρ c main_arg2 (by decide),
    V1_v1, V1_v3, V1_arg m ρ c main_arg2 (by decide)]
  rfl
theorem V3_v36 : V3 m ρ c main_v36 = stackT2 (m ((c : Thread nD τ).loc main_arg8)) (m ((c : Thread nD τ).loc main_arg10)) (m ((c : Thread nD τ).loc main_arg11)) := by
  refine (host1_v36 (W2 m ρ c)).trans ?_
  show stackT2 (V2 m ρ c main_arg8) (V2 m ρ c main_arg10) (V2 m ρ c main_arg11) = _
  rw [V2_keep m ρ c main_arg8 (by decide), V2_keep m ρ c main_arg10 (by decide), V2_keep m ρ c main_arg11 (by decide),
    V1_arg m ρ c main_arg8 (by decide), V1_arg m ρ c main_arg10 (by decide), V1_arg m ρ c main_arg11 (by decide)]
theorem V3_v39 : V3 m ρ c main_v39 = biasRow (m ((c : Thread nD τ).loc main_arg9)) (m ((c : Thread nD τ).loc main_arg12)) := by
  refine (host1_v39 (W2 m ρ c)).trans ?_
  show biasRow (V2 m ρ c main_arg9) (V2 m ρ c main_arg12) = _
  rw [V2_keep m ρ c main_arg9 (by decide), V2_keep m ρ c main_arg12 (by decide),
    V1_arg m ρ c main_arg9 (by decide), V1_arg m ρ c main_arg12 (by decide)]

/-! ## After the second launch -/

theorem V4_v40 : V4 m ρ c main_v40
    = Cert.Spec.lin (q1 m c) (stackT2 (m ((c : Thread nD τ).loc main_arg8)) (m ((c : Thread nD τ).loc main_arg10)) (m ((c : Thread nD τ).loc main_arg11))) (biasRow (m ((c : Thread nD τ).loc main_arg9)) (m ((c : Thread nD τ).loc main_arg12))) := by
  refine (W4_arr m ρ c 3).trans ((Cert.KernelIdeal.Arr.final1 (V3 m ρ) c).trans ?_)
  rw [V3_v34, V3_v36, V3_v39]
theorem V4_keep (b : Ref sig .tc) (h1 : ∀ w, Pipeline.arrRef spec1 w ≠ b)
    (hw1 : b ∉ (Cert.KernelIdeal.Gen.hostOps1_W : List (Ref sig .tc))) (h0 : ∀ w, Pipeline.arrRef spec0 w ≠ b) :
    V4 m ρ c b = V1 m ρ c b := W4_keep m ρ c b h1 hw1 h0

/-! ## After the last stretch -/

theorem V5_v81 : V5 m ρ c main_v81 = edgeRep (q2 m c) (srcOf (m ((c : Thread nD τ).loc main_arg1))) (dstOf (m ((c : Thread nD τ).loc main_arg1))) := by
  refine (host2_v81 (W4 m ρ c)).trans ?_
  show edgeRep (layerOut (V4 m ρ c main_v40) (V4 m ρ c main_v1) (V4 m ρ c main_v3) (V4 m ρ c main_arg2)) (V4 m ρ c main_v1) (V4 m ρ c main_v3) = _
  rw [V4_v40, V4_keep m ρ c main_v1 (by decide) (by decide) (by decide), V4_keep m ρ c main_v3 (by decide) (by decide) (by decide),
    V4_keep m ρ c main_arg2 (by decide) (by decide) (by decide), V1_v1, V1_v3, V1_arg m ρ c main_arg2 (by decide)]
  rfl
theorem V5_v83 : V5 m ρ c main_v83
    = wT1 (m ((c : Thread nD τ).loc main_arg13)) := by
  refine (host2_v83 (W4 m ρ c)).trans ?_
  show wT1 (V4 m ρ c main_arg13) = _
  rw [V4_keep m ρ c main_arg13 (by decide) (by decide) (by decide), V1_arg m ρ c main_arg13 (by decide)]
theorem V5_v85 : V5 m ρ c main_v85
    = wT2 (m ((c : Thread nD τ).loc main_arg15)) := by
  refine (host2_v85 (W4 m ρ c)).trans ?_
  show wT2 (V4 m ρ c main_arg15) = _
  rw [V4_keep m ρ c main_arg15 (by decide) (by decide) (by decide), V1_arg m ρ c main_arg15 (by decide)]
theorem V5_v86 : V5 m ρ c main_v86 = shapeCast S1x256 (m ((c : Thread nD τ).loc main_arg14)) shapeCasts_S256_S1x256 := by
  refine (host2_v86 (W4 m ρ c)).trans ?_
  show shapeCast S1x256 (V4 m ρ c main_arg14) shapeCasts_S256_S1x256 = _
  rw [V4_keep m ρ c main_arg14 (by decide) (by decide) (by decide), V1_arg m ρ c main_arg14 (by decide)]
theorem V5_v87 : V5 m ρ c main_v87 = shapeCast S1x4 (m ((c : Thread nD τ).loc main_arg16)) shapeCasts_S4_S1x4 := by
  refine (host2_v87 (W4 m ρ c)).trans ?_
  show shapeCast S1x4 (V4 m ρ c main_arg16) shapeCasts_S4_S1x4 = _
  rw [V4_keep m ρ c main_arg16 (by decide) (by decide) (by decide), V1_arg m ρ c main_arg16 (by decide)]

/-! ## After the last launch -/

/-- The result array ends at `out` of the argument arrays. -/
theorem result_eq : W6 m ρ c (Proc.devRef .tc main_v88) = out m c := by
  refine (W6_arr m ρ c 5).trans ((Cert.KernelIdeal.Arr.final2 (V5 m ρ) c).trans ?_)
  rw [V5_v81, V5_v83, V5_v86, V5_v85, V5_v87]
  rfl

end Cert.KernelIdeal.Val

end
-- ==== Proof.Alg.lean ====
/-
  The two programs' layers, entry by entry, over the extended reals.

  One program stacks the three weight matrices of a layer, W₁, W₂, W₃ : [64, K], into one [192, K] matrix, transposes
  it, stacks the biases b₁, 0, b₃ into one row, and computes x·Wᵀ + b in one product whose three column bands are
  then cut apart.  The other computes x·W₁ᵀ + b₁, x·W₂ᵀ and x·W₃ᵀ + b₃ separately.  Column 64·j + q of the stacked
  product is Σₖ x(p,k)·Wⱼ(q,k) + bⱼ(q), which is the separate product's entry; adding the zero bias changes nothing,
  and the last band's bias is added before or after the neighbourhood sum because addition of extended reals is
  associative.  The closing perceptron is the same sum on both sides.
-/
import proofs.«117817_j14499809592003_2_alg».proof.Proof.Spec
import proofs.«117817_j14499809592003_2_alg».proof.Proof.LibPlainDot
import Idealize.ShloMosaic.Lib.Pipeline.Value
import Idealize.ShloMosaic.Lib.ValueLayout

noncomputable section

namespace Cert.Alg

open Idealize.ShloMosaic Idealize.ShloMosaic.ValueIdx Cert.Spec
open scoped BigOperators

variable {K : Nat}

/-! ## The stacked operands read at an entry -/

/-- Three [64, K] matrices stacked along the rows: row `64·j + q` is row `q` of the `j`-th. -/
theorem stack3_apply (W : Fin 3 → (⟨2, ![64, K]⟩ : Shape).Idx → EReal)
    (hc : Shape.Concatenates [(⟨2, ![64, K]⟩ : Shape), ⟨2, ![64, K]⟩, ⟨2, ![64, K]⟩] ⟨2, ![192, K]⟩ 0)
    (j : Fin 3) (q : Fin 64) (k : Fin K) (r : Fin 192) (hr : r.val = 64 * j.val + q.val) :
    concatenate ⟨2, ![192, K]⟩ 0 [⟨⟨2, ![64, K]⟩, W 0⟩, ⟨⟨2, ![64, K]⟩, W 1⟩, ⟨⟨2, ![64, K]⟩, W 2⟩] hc (ix2 r k) = W j (ix2 q k) := by
  refine concatenate_apply_piece (t := ⟨2, ![192, K]⟩) (0 : Fin 2) [⟨⟨2, ![64, K]⟩, W 0⟩, ⟨⟨2, ![64, K]⟩, W 1⟩, ⟨⟨2, ![64, K]⟩, W 2⟩] hc (ix2 r k) j.val (by have := j.isLt; simpa using this) ⟨2, ![64, K]⟩ (W j) ?_ rfl (64 * j.val) ?_ (ix2 q k) ?_ ?_
  · match j with
    | ⟨0, _⟩ => rfl
    | ⟨1, _⟩ => rfl
    | ⟨2, _⟩ => rfl
  · match j with
    | ⟨0, _⟩ => rfl
    | ⟨1, _⟩ => rfl
    | ⟨2, _⟩ => rfl
  · intro b hb
    match b with
    | ⟨0, _⟩ => exact absurd rfl hb
    | ⟨1, _⟩ => rfl
  · exact hr.symm

/-- Three [64] vectors stacked: entry `64·j + q` is entry `q` of the `j`-th. -/
theorem stack3v_apply (b : Fin 3 → (⟨1, ![64]⟩ : Shape).Idx → EReal)
    (hc : Shape.Concatenates [(⟨1, ![64]⟩ : Shape), ⟨1, ![64]⟩, ⟨1, ![64]⟩] ⟨1, ![192]⟩ 0)
    (j : Fin 3) (q : Fin 64) (r : Fin 192) (hr : r.val = 64 * j.val + q.val) :
    concatenate ⟨1, ![192]⟩ 0 [⟨⟨1, ![64]⟩, b 0⟩, ⟨⟨1, ![64]⟩, b 1⟩, ⟨⟨1, ![64]⟩, b 2⟩] hc (ix1 r) = b j (ix1 q) := by
  refine concatenate_apply_piece (t := ⟨1, ![192]⟩) (0 : Fin 1) [⟨⟨1, ![64]⟩, b 0⟩, ⟨⟨1, ![64]⟩, b 1⟩, ⟨⟨1, ![64]⟩, b 2⟩] hc (ix1 r) j.val (by have := j.isLt; simpa using this) ⟨1, ![64]⟩ (b j) ?_ rfl (64 * j.val) ?_ (ix1 q) ?_ ?_
  · match j with
    | ⟨0, _⟩ => rfl
    | ⟨1, _⟩ => rfl
    | ⟨2, _⟩ => rfl
  · match j with
    | ⟨0, _⟩ => rfl
    | ⟨1, _⟩ => rfl
    | ⟨2, _⟩ => rfl
  · intro b hb
    match b with
    | ⟨0, _⟩ => exact absurd rfl hb
  · exact hr.symm

/-- Band `j` of the stacked product `x·Wᵀ + b`: entry (p, q) is Σₖ x(p,k)·Wⱼ(q,k) + bⱼ(q). -/
theorem band_apply {M : Nat} (x : (⟨2, ![M, K]⟩ : Shape).Idx → EReal) (W : Fin 3 → (⟨2, ![64, K]⟩ : Shape).Idx → EReal)
    (b : Fin 3 → (⟨1, ![64]⟩ : Shape).Idx → EReal)
    (hc : Shape.Concatenates [(⟨2, ![64, K]⟩ : Shape), ⟨2, ![64, K]⟩, ⟨2, ![64, K]⟩] ⟨2, ![192, K]⟩ 0)
    (ht : (⟨2, ![192, K]⟩ : Shape).Transposes [1, 0] ⟨2, ![K, 192]⟩)
    (hcb : Shape.Concatenates [(⟨1, ![64]⟩ : Shape), ⟨1, ![64]⟩, ⟨1, ![64]⟩] ⟨1, ![192]⟩ 0)
    (hs : (⟨1, ![192]⟩ : Shape).ShapeCasts ⟨2, ![1, 192]⟩)
    (o : Nat) (j : Fin 3) (ho : o = 64 * j.val)
    (hsl : (⟨2, ![M, 192]⟩ : Shape).Slices ![0, o] ⟨2, ![M, 64]⟩) (p : Fin M) (q : Fin 64) :
    extractStridedSlice ⟨2, ![M, 64]⟩ ![0, o]
        (lin x (transpose ⟨2, ![K, 192]⟩ [1, 0] (concatenate ⟨2, ![192, K]⟩ 0 [⟨⟨2, ![64, K]⟩, W 0⟩, ⟨⟨2, ![64, K]⟩, W 1⟩, ⟨⟨2, ![64, K]⟩, W 2⟩] hc) ht)
          (shapeCast ⟨2, ![1, 192]⟩ (concatenate ⟨1, ![192]⟩ 0 [⟨⟨1, ![64]⟩, b 0⟩, ⟨⟨1, ![64]⟩, b 1⟩, ⟨⟨1, ![64]⟩, b 2⟩] hcb) hs))
        hsl (ix2 p q)
      = (∑ k : Fin K, x (ix2 p k) * W j (ix2 q k)) + b j (ix1 q) := by
  rw [slice2_axis1_eq, lin_apply]
  unfold linAt
  have hr : (⟨o + q.val, Nat.lt_of_lt_of_le (Nat.add_lt_add_left q.isLt o) (hsl.2 1)⟩ : Fin 192).val = 64 * j.val + q.val := by
    show o + q.val = _; rw [ho]
  rw [shapeCast_a_1a_apply, stack3v_apply b hcb j q _ hr]
  refine congrArg (· + _) (Finset.sum_congr rfl fun k _ => ?_)
  rw [transpose_ix2_apply, stack3_apply W hc j q k _ hr]

/-- Band 0 with the three blocks named. -/
theorem band0_apply {M : Nat} (x : (⟨2, ![M, K]⟩ : Shape).Idx → EReal) (W0 W1 W2 : (⟨2, ![64, K]⟩ : Shape).Idx → EReal)
    (b0 b1 b2 : (⟨1, ![64]⟩ : Shape).Idx → EReal)
    (hc : Shape.Concatenates [(⟨2, ![64, K]⟩ : Shape), ⟨2, ![64, K]⟩, ⟨2, ![64, K]⟩] ⟨2, ![192, K]⟩ 0)
    (ht : (⟨2, ![192, K]⟩ : Shape).Transposes [1, 0] ⟨2, ![K, 192]⟩)
    (hcb : Shape.Concatenates [(⟨1, ![64]⟩ : Shape), ⟨1, ![64]⟩, ⟨1, ![64]⟩] ⟨1, ![192]⟩ 0)
    (hs : (⟨1, ![192]⟩ : Shape).ShapeCasts ⟨2, ![1, 192]⟩)
    (hsl : (⟨2, ![M, 192]⟩ : Shape).Slices ![0, 0] ⟨2, ![M, 64]⟩) (p : Fin M) (q : Fin 64) :
    extractStridedSlice ⟨2, ![M, 64]⟩ ![0, 0]
        (lin x (transpose ⟨2, ![K, 192]⟩ [1, 0] (concatenate ⟨2, ![192, K]⟩ 0 [⟨⟨2, ![64, K]⟩, W0⟩, ⟨⟨2, ![64, K]⟩, W1⟩, ⟨⟨2, ![64, K]⟩, W2⟩] hc) ht)
          (shapeCast ⟨2, ![1, 192]⟩ (concatenate ⟨1, ![192]⟩ 0 [⟨⟨1, ![64]⟩, b0⟩, ⟨⟨1, ![64]⟩, b1⟩, ⟨⟨1, ![64]⟩, b2⟩] hcb) hs))
        hsl (ix2 p q)
      = (∑ k : Fin K, x (ix2 p k) * W0 (ix2 q k)) + b0 (ix1 q) :=
  band_apply x ![W0, W1, W2] ![b0, b1, b2] hc ht hcb hs 0 0 rfl hsl p q

/-- Band 1 with the three blocks named. -/
theorem band1_apply {M : Nat} (x : (⟨2, ![M, K]⟩ : Shape).Idx → EReal) (W0 W1 W2 : (⟨2, ![64, K]⟩ : Shape).Idx → EReal)
    (b0 b1 b2 : (⟨1, ![64]⟩ : Shape).Idx → EReal)
    (hc : Shape.Concatenates [(⟨2, ![64, K]⟩ : Shape), ⟨2, ![64, K]⟩, ⟨2, ![64, K]⟩] ⟨2, ![192, K]⟩ 0)
    (ht : (⟨2, ![192, K]⟩ : Shape).Transposes [1, 0] ⟨2, ![K, 192]⟩)
    (hcb : Shape.Concatenates [(⟨1, ![64]⟩ : Shape), ⟨1, ![64]⟩, ⟨1, ![64]⟩] ⟨1, ![192]⟩ 0)
    (hs : (⟨1, ![192]⟩ : Shape).ShapeCasts ⟨2, ![1, 192]⟩)
    (hsl : (⟨2, ![M, 192]⟩ : Shape).Slices ![0, 64] ⟨2, ![M, 64]⟩) (p : Fin M) (q : Fin 64) :
    extractStridedSlice ⟨2, ![M, 64]⟩ ![0, 64]
        (lin x (transpose ⟨2, ![K, 192]⟩ [1, 0] (concatenate ⟨2, ![192, K]⟩ 0 [⟨⟨2, ![64, K]⟩, W0⟩, ⟨⟨2, ![64, K]⟩, W1⟩, ⟨⟨2, ![64, K]⟩, W2⟩] hc) ht)
          (shapeCast ⟨2, ![1, 192]⟩ (concatenate ⟨1, ![192]⟩ 0 [⟨⟨1, ![64]⟩, b0⟩, ⟨⟨1, ![64]⟩, b1⟩, ⟨⟨1, ![64]⟩, b2⟩] hcb) hs))
        hsl (ix2 p q)
      = (∑ k : Fin K, x (ix2 p k) * W1 (ix2 q k)) + b1 (ix1 q) :=
  band_apply x ![W0, W1, W2] ![b0, b1, b2] hc ht hcb hs 64 1 rfl hsl p q

/-- Band 2 with the three blocks named. -/
theorem band2_apply {M : Nat} (x : (⟨2, ![M, K]⟩ : Shape).Idx → EReal) (W0 W1 W2 : (⟨2, ![64, K]⟩ : Shape).Idx → EReal)
    (b0 b1 b2 : (⟨1, ![64]⟩ : Shape).Idx → EReal)
    (hc : Shape.Concatenates [(⟨2, ![64, K]⟩ : Shape), ⟨2, ![64, K]⟩, ⟨2, ![64, K]⟩] ⟨2, ![192, K]⟩ 0)
    (ht : (⟨2, ![192, K]⟩ : Shape).Transposes [1, 0] ⟨2, ![K, 192]⟩)
    (hcb : Shape.Concatenates [(⟨1, ![64]⟩ : Shape), ⟨1, ![64]⟩, ⟨1, ![64]⟩] ⟨1, ![192]⟩ 0)
    (hs : (⟨1, ![192]⟩ : Shape).ShapeCasts ⟨2, ![1, 192]⟩)
    (hsl : (⟨2, ![M, 192]⟩ : Shape).Slices ![0, 128] ⟨2, ![M, 64]⟩) (p : Fin M) (q : Fin 64) :
    extractStridedSlice ⟨2, ![M, 64]⟩ ![0, 128]
        (lin x (transpose ⟨2, ![K, 192]⟩ [1, 0] (concatenate ⟨2, ![192, K]⟩ 0 [⟨⟨2, ![64, K]⟩, W0⟩, ⟨⟨2, ![64, K]⟩, W1⟩, ⟨⟨2, ![64, K]⟩, W2⟩] hc) ht)
          (shapeCast ⟨2, ![1, 192]⟩ (concatenate ⟨1, ![192]⟩ 0 [⟨⟨1, ![64]⟩, b0⟩, ⟨⟨1, ![64]⟩, b1⟩, ⟨⟨1, ![64]⟩, b2⟩] hcb) hs))
        hsl (ix2 p q)
      = (∑ k : Fin K, x (ix2 p k) * W2 (ix2 q k)) + b2 (ix1 q) :=
  band_apply x ![W0, W1, W2] ![b0, b1, b2] hc ht hcb hs 128 2 rfl hsl p q

/-! ## The separate products read at an entry -/

/-- `x·Wᵀ` by the host's product: entry (p, q) is Σₖ x(p,k)·W(q,k). -/
theorem prodT_apply {M N : Nat} {φ₁ φ₂ : FTy} (d : DotDims ⟨2, ![M, K]⟩ ⟨2, ![K, N]⟩ ⟨2, ![M, N]⟩) (hd : Cert.LibPlainDot.Plain d)
    (x : FVec Ideal ⟨2, ![M, K]⟩ φ₁) (W : FVec Ideal ⟨2, ![N, K]⟩ φ₂)
    (ht : (⟨2, ![N, K]⟩ : Shape).Transposes [1, 0] ⟨2, ![K, N]⟩) (p : Fin M) (q : Fin N) :
    Host.dotGeneral d none x (transpose ⟨2, ![K, N]⟩ [1, 0] W ht) (ix2 p q) = ∑ k : Fin K, x (ix2 p k) * W (ix2 q k) := by
  refine (Cert.LibPlainDot.dotGeneral_apply d hd none _ x _ p q).trans (Finset.sum_congr rfl fun k _ => ?_)
  rw [transpose_ix2_apply]

/-- A [N] vector broadcast to one row and then over `M` rows: entry (p, q) is entry `q`. -/
theorem rowBias_apply {M N : Nat} (b : (⟨1, ![N]⟩ : Shape).Idx → EReal)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- A scalar broadcast over an array: every entry is the scalar. -/
theorem scalar_apply {s : Shape} (v : (⟨0, ![]⟩ : Shape).Idx → EReal)
    (h : (⟨0, ![]⟩ : Shape).BroadcastsInDim s (![] : Fin 0 → Fin s.rank)) (i : s.Idx) :
    broadcastInDim s ![] h v i = v ix0 :=
  broadcastInDim_apply ![] h v i ix0 (fun a => a.elim0)

end Cert.Alg

end
-- ==== Proof.Bridge.lean ====
/-
  The two programs compute one function of the arguments.

  Layer by layer: the bands of the stacked product are the separate products (with the zero bias dropped and the
  last bias added after the neighbourhood sum, which is the same sum); the neighbourhood sum and the gathering of
  the endpoint rows are the same host operations on both sides, applied to equal arrays; the closing perceptron
  is the same double sum.  Narrowing to the half-width format is the identity over the extended reals.
-/
import proofs.«117817_j14499809592003_2_alg».proof.Proof.KIHost
import proofs.«117817_j14499809592003_2_alg».proof.Proof.Alg
import proofs.«117817_j14499809592003_2_alg».proof.Proof.Gen.ReferenceIdeal.Read

set_option maxRecDepth 16384

noncomputable section

namespace Cert.Bridge

open Idealize.ShloMosaic Idealize.ShloMosaic.ValueIdx
open Cert.ReferenceIdeal Cert.ReferenceIdeal.Gen Cert.ReferenceIdeal.Read
open Cert.KernelIdeal.Hst (srcOf dstOf idxCol aggr layerOut biasRow edgeRep stackT1 stackT2)
open scoped BigOperators

/-- The host's product of two single-precision arrays, read over the extended reals. -/
abbrev hdot {sl sr so : Shape} (d : DotDims sl sr so) (x : FVec Ideal sl .f32) (y : FVec Ideal sr .f32) : FVec Ideal so .f32 :=
  Host.dotGeneral (F := Ideal) (φ₁ := .f32) (φ₂ := .f32) d none x y

/-! ## The shared host operations -/

theorem ref_aggr1 (x0 : (⟨S50000x4, .f32⟩ : BufTy).Contents (Elt Ideal)) (x1 : (⟨S2x800000, .i32⟩ : BufTy).Contents (Elt Ideal)) (x2 : (⟨S800000, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) :
    val_main_v31 (F := Ideal) x0 x1 x2 x3 x4 x5 = aggr (val_main_v8 (F := Ideal) x0 x3 x4) (val_main_v10 (F := Ideal) x0 x5) (srcOf x1) (dstOf x1) x2 := rfl

theorem ref_aggr2 (x0 : (⟨S50000x4, .f32⟩ : BufTy).Contents (Elt Ideal)) (x1 : (⟨S2x800000, .i32⟩ : BufTy).Contents (Elt Ideal)) (x2 : (⟨S800000, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) (x6 : (⟨S64x4, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v65 (F := Ideal) x0 x1 x2 x3 x4 x5 x6 x7 x8 x9 x10
      = aggr (val_main_v42 (F := Ideal) x0 x1 x2 x3 x4 x5 x6 x7 x8 x9) (val_main_v44 (F := Ideal) x0 x1 x2 x3 x4 x5 x6 x7 x10) (srcOf x1) (dstOf x1) x2 := rfl

/-- Every edge's endpoint rows of any node array `Q`: narrowing to the half-width format changes nothing, and the
    index columns are the reference's. -/
theorem rep_eq (Q : (⟨S50000x64, .f32⟩ : BufTy).Contents (Elt Ideal)) (x1 : (⟨S2x800000, .i32⟩ : BufTy).Contents (Elt Ideal)) :
    edgeRep Q (srcOf x1) (dstOf x1)
      = concatenate S800000x128 1
          [⟨S800000x64, Host.gather gather_S50000x64_S800000x1_S800000x64_1_0_n_n_0_1_164 Q (val_main_v77 (F := Ideal) x1)⟩,
           ⟨S800000x64, Host.gather gather_S50000x64_S800000x1_S800000x64_1_0_n_n_0_1_164 Q (val_main_v84 (F := Ideal) x1)⟩]
          concatenates_S800000x64_S800000x64_S800000x128_d1 := rfl

theorem ref_rep (x0 : (⟨S50000x4, .f32⟩ : BufTy).Contents (Elt Ideal)) (x1 : (⟨S2x800000, .i32⟩ : BufTy).Contents (Elt Ideal)) (x2 : (⟨S800000, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) (x6 : (⟨S64x4, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) :
    val_main_v86 (F := Ideal) x0 x1 x2 x3 x4 x5 x6 x7 x8 x9 x10 x11 x12 = edgeRep (val_main_v71 (F := Ideal) x0 x1 x2 x3 x4 x5 x6 x7 x8 x9 x10 x11 x12) (srcOf x1) (dstOf x1) := by
  unfold val_main_v86 val_main_v78 val_main_v85
  exact (rep_eq _ x1).symm

/-! ## A layer's bands -/

/-- The zero block of the stacked biases is zero. -/
theorem zeroBlock (h : Cert.KernelIdeal.S_.BroadcastsInDim Cert.KernelIdeal.S64 (![] : Fin 0 → Fin Cert.KernelIdeal.S64.rank)) (q : Fin 64) :
    broadcastInDim Cert.KernelIdeal.S64 ![] h (constant (F := Ideal) Cert.KernelIdeal.S_ .f32 0x00000000#32) (ix1 q) = 0 := by
  rw [Cert.Alg.scalar_apply]
  exact Ideal.ofBits_zero_f32

section Layer1
variable (x0 : (⟨S50000x4, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) (x6 : (⟨S64x4, .f32⟩ : BufTy).Contents (Elt Ideal)) (x7 : (⟨S64, .f32⟩ : BufTy).Contents (Elt Ideal))

theorem l1_band0 (hsl : Cert.KernelIdeal.S50000x192.Slices ![0, 0] Cert.KernelIdeal.S50000x64) :
    extractStridedSlice Cert.KernelIdeal.S50000x64 ![0, 0] (Cert.Spec.lin x0 (stackT1 x3 x5 x6) (biasRow x4 x7)) hsl
      = val_main_v8 (F := Ideal) x0 x3 x4 := by
  funext i
  obtain ⟨p, q, rfl⟩ : ∃ (p : Fin 50000) (q : Fin 64), i = ix2 p q := ⟨i 0, i 1, eq_ix2 i⟩
  unfold stackT1 biasRow
  refine (Cert.Alg.band0_apply x0 x3 x5 x6 x4 _ x7 _ _ _ _ hsl p q).trans ?_
  unfold val_main_v8 val_main_v5 val_main_v7 val_main_v6 val_main_v4
  exact (congrArg₂ (· + ·) (Cert.Alg.prodT_apply _ ⟨rfl, rfl, rfl, rfl, rfl, rfl⟩ x0 x3 _ p q) (Cert.Alg.rowBias_apply x4 _ _ p q)).symm

theorem l1_band1 (hsl : Cert.KernelIdeal.S50000x192.Slices ![0, 64] Cert.KernelIdeal.S50000x64) :
    extractStridedSlice Cert.KernelIdeal.S50000x64 ![0, 64] (Cert.Spec.lin x0 (stackT1 x3 x5 x6) (biasRow x4 x7)) hsl
      = val_main_v10 (F := Ideal) x0 x5 := by
  funext i
  obtain ⟨p, q, rfl⟩ : ∃ (p : Fin 50000) (q : Fin 64), i = ix2 p q := ⟨i 0, i 1, eq_ix2 i⟩
  unfold stackT1 biasRow
  refine (Cert.Alg.band1_apply x0 x3 x5 x6 x4 _ x7 _ _ _ _ hsl p q).trans ?_
  rw [zeroBlock, add_zero]
  unfold val_main_v10 val_main_v9
  exact (Cert.Alg.prodT_apply _ ⟨rfl, rfl, rfl, rfl, rfl, rfl⟩ x0 x5 _ p q).symm

theorem l1_band2 (hsl : Cert.KernelIdeal.S50000x192.Slices ![0, 128] Cert.KernelIdeal.S50000x64) (i : S50000x64.Idx) :
    extractStridedSlice Cert.KernelIdeal.S50000x64 ![0, 128] (Cert.Spec.lin x0 (stackT1 x3 x5 x6) (biasRow x4 x7)) hsl i
      = val_main_v33 (F := Ideal) x0 x6 i + val_main_v36 (F := Ideal) x7 i := by
  obtain ⟨p, q, rfl⟩ : ∃ (p : Fin 50000) (q : Fin 64), i = ix2 p q := ⟨i 0, i 1, eq_ix2 i⟩
  unfold stackT1 biasRow
  refine (Cert.Alg.band2_apply x0 x3 x5 x6 x4 _ x7 _ _ _ _ hsl p q).trans ?_
  unfold val_main_v33 val_main_v32 val_main_v36 val_main_v35
  exact (congrArg₂ (· + ·) (Cert.Alg.prodT_apply _ ⟨rfl, rfl, rfl, rfl, rfl, rfl⟩ x0 x6 _ p q) (Cert.Alg.rowBias_apply x7 _ _ p q)).symm

end Layer1

/-- Layer one: the stacked product's bands through the neighbourhood sum are the reference's layer. -/
theorem layer1 (x0 : (⟨S50000x4, .f32⟩ : BufTy).Contents (Elt Ideal)) (x1 : (⟨S2x800000, .i32⟩ : BufTy).Contents (Elt Ideal)) (x2 : (⟨S800000, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) (x6 : (⟨S64x4, .f32⟩ : BufTy).Contents (Elt Ideal)) (x7 : (⟨S64, .f32⟩ : BufTy).Contents (Elt Ideal)) :
    layerOut (Cert.Spec.lin x0 (stackT1 x3 x5 x6) (biasRow x4 x7)) (srcOf x1) (dstOf x1) x2
      = val_main_v37 (F := Ideal) x0 x1 x2 x3 x4 x5 x6 x7 := by
  unfold layerOut val_main_v37 val_main_v34
  rw [ref_aggr1, l1_band0, l1_band1]
  funext i
  rw [addf_apply, addf_apply, addf_apply, l1_band2, add_assoc]

section Layer2
variable (Q : (⟨S50000x64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal))

theorem l2_band0 (hsl : Cert.KernelIdeal.S50000x192.Slices ![0, 0] Cert.KernelIdeal.S50000x64) :
    extractStridedSlice Cert.KernelIdeal.S50000x64 ![0, 0] (Cert.Spec.lin Q (stackT2 x8 x10 x11) (biasRow x9 x12)) hsl
      = addf (F := Ideal) (hdot dot_S50000x64_S64x64_S50000x64_1_0_0_1_n_n Q (val_main_v38 (F := Ideal) x8)) (val_main_v41 (F := Ideal) x9) := by
  funext i
  obtain ⟨p, q, rfl⟩ : ∃ (p : Fin 50000) (q : Fin 64), i = ix2 p q := ⟨i 0, i 1, eq_ix2 i⟩
  unfold stackT2 biasRow
  refine (Cert.Alg.band0_apply Q x8 x10 x11 x9 _ x12 _ _ _ _ hsl p q).trans ?_
  unfold val_main_v38 val_main_v41 val_main_v40
  exact (congrArg₂ (· + ·) (Cert.Alg.prodT_apply _ ⟨rfl, rfl, rfl, rfl, rfl, rfl⟩ Q x8 _ p q) (Cert.Alg.rowBias_apply x9 _ _ p q)).symm

theorem l2_band1 (hsl : Cert.KernelIdeal.S50000x192.Slices ![0, 64] Cert.KernelIdeal.S50000x64) :
    extractStridedSlice Cert.KernelIdeal.S50000x64 ![0, 64] (Cert.Spec.lin Q (stackT2 x8 x10 x11) (biasRow x9 x12)) hsl
      = hdot dot_S50000x64_S64x64_S50000x64_1_0_0_1_n_n Q (val_main_v43 (F := Ideal) x10) := by
  funext i
  obtain ⟨p, q, rfl⟩ : ∃ (p : Fin 50000) (q : Fin 64), i = ix2 p q := ⟨i 0, i 1, eq_ix2 i⟩
  unfold stackT2 biasRow
  refine (Cert.Alg.band1_apply Q x8 x10 x11 x9 _ x12 _ _ _ _ hsl p q).trans ?_
  rw [zeroBlock, add_zero]
  unfold val_main_v43
  exact (Cert.Alg.prodT_apply _ ⟨rfl, rfl, rfl, rfl, rfl, rfl⟩ Q x10 _ p q).symm

theorem l2_band2 (hsl : Cert.KernelIdeal.S50000x192.Slices ![0, 128] Cert.KernelIdeal.S50000x64) (i : S50000x64.Idx) :
    extractStridedSlice Cert.KernelIdeal.S50000x64 ![0, 128] (Cert.Spec.lin Q (stackT2 x8 x10 x11) (biasRow x9 x12)) hsl i
      = hdot dot_S50000x64_S64x64_S50000x64_1_0_0_1_n_n Q (val_main_v66 (F := Ideal) x11) i + val_main_v70 (F := Ideal) x12 i := by
  obtain ⟨p, q, rfl⟩ : ∃ (p : Fin 50000) (q : Fin 64), i = ix2 p q := ⟨i 0, i 1, eq_ix2 i⟩
  unfold stackT2 biasRow
  refine (Cert.Alg.band2_apply Q x8 x10 x11 x9 _ x12 _ _ _ _ hsl p q).trans ?_
  unfold val_main_v66 val_main_v70 val_main_v69
  exact (congrArg₂ (· + ·) (Cert.Alg.prodT_apply _ ⟨rfl, rfl, rfl, rfl, rfl, rfl⟩ Q x11 _ p q) (Cert.Alg.rowBias_apply x12 _ _ p q)).symm

end Layer2

/-- Layer two, on the reference's first layer. -/
theorem layer2 (x0 : (⟨S50000x4, .f32⟩ : BufTy).Contents (Elt Ideal)) (x1 : (⟨S2x800000, .i32⟩ : BufTy).Contents (Elt Ideal)) (x2 : (⟨S800000, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) (x6 : (⟨S64x4, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) :
    layerOut (Cert.Spec.lin (val_main_v37 (F := Ideal) x0 x1 x2 x3 x4 x5 x6 x7) (stackT2 x8 x10 x11) (biasRow x9 x12)) (srcOf x1) (dstOf x1) x2
      = val_main_v71 (F := Ideal) x0 x1 x2 x3 x4 x5 x6 x7 x8 x9 x10 x11 x12 := by
  unfold layerOut val_main_v71 val_main_v68 val_main_v67
  rw [ref_aggr2]
  unfold val_main_v42 val_main_v39 val_main_v44
  rw [l2_band0, l2_band1]
  funext i
  rw [addf_apply, addf_apply, addf_apply, l2_band2, add_assoc]

/-! ## The closing perceptron -/

/-- The perceptron of any edge representation: the specification's double sum is the reference's two products. -/
theorem percep (X : (⟨S800000x128, .f32⟩ : BufTy).Contents (Elt Ideal)) (x13 : (⟨S256x128, .f32⟩ : BufTy).Contents (Elt Ideal)) (x14 : (⟨S256, .f32⟩ : BufTy).Contents (Elt Ideal)) (x15 : (⟨S4x256, .f32⟩ : BufTy).Contents (Elt Ideal)) (x16 : (⟨S4, .f32⟩ : BufTy).Contents (Elt Ideal))
    (hs1 : Cert.KernelIdeal.S256.ShapeCasts Cert.KernelIdeal.S1x256) (hs2 : Cert.KernelIdeal.S4.ShapeCasts Cert.KernelIdeal.S1x4) :
    Cert.Spec.mlp X (val_main_v87 (F := Ideal) x13) (shapeCast Cert.KernelIdeal.S1x256 x14 hs1)
        (val_main_v93 (F := Ideal) x15) (shapeCast Cert.KernelIdeal.S1x4 x16 hs2)
      = addf (F := Ideal) (hdot dot_S800000x256_S256x4_S800000x4_1_0_0_1_n_n
            (maximumf (F := Ideal) (addf (F := Ideal) (hdot dot_S800000x128_S128x256_S800000x256_1_0_0_1_n_n X (val_main_v87 (F := Ideal) x13))
              (val_main_v90 (F := Ideal) x14)) (val_main_call0_v0 (F := Ideal)))
            (val_main_v93 (F := Ideal) x15))
          (val_main_v96 (F := Ideal) x16) := by
  funext i
  obtain ⟨p, q, rfl⟩ : ∃ (p : Fin 800000) (q : Fin 4), i = ix2 p q := ⟨i 0, i 1, eq_ix2 i⟩
  rw [Cert.Spec.mlp_apply]
  unfold Cert.Spec.mlpAt Cert.Spec.linAt
  symm
  show hdot dot_S800000x256_S256x4_S800000x4_1_0_0_1_n_n _ _ (ix2 p q) + val_main_v96 (F := Ideal) x16 (ix2 p q) = _
  unfold val_main_v96 val_main_v95
  rw [Cert.Alg.rowBias_apply, shapeCast_a_1a_apply]
  refine congrArg (· + _) ?_
  refine (Cert.LibPlainDot.dotGeneral_apply _ ⟨rfl, rfl, rfl, rfl, rfl, rfl⟩ none _ _ _ p q).trans (Finset.sum_congr rfl fun h _ => ?_)
  refine congrArg (· * _) ?_
  show max (hdot dot_S800000x128_S128x256_S800000x256_1_0_0_1_n_n X (val_main_v87 (F := Ideal) x13) (ix2 p h)
      + val_main_v90 (F := Ideal) x14 (ix2 p h)) (val_main_call0_v0 (F := Ideal) (ix2 p h)) = _
  unfold val_main_v90 val_main_v89 val_main_call0_v0 val_main_call0_cst
  rw [Cert.Alg.rowBias_apply, shapeCast_a_1a_apply, Cert.Alg.scalar_apply]
  refine congrArg₂ max (congrArg (· + _) ?_) rfl
  exact Cert.LibPlainDot.dotGeneral_apply _ ⟨rfl, rfl, rfl, rfl, rfl, rfl⟩ none _ X _ p h

/-! ## The whole program -/

/-- The kernel's result as a function of the arguments is the reference's. -/
theorem final (x0 : (⟨S50000x4, .f32⟩ : BufTy).Contents (Elt Ideal)) (x1 : (⟨S2x800000, .i32⟩ : BufTy).Contents (Elt Ideal)) (x2 : (⟨S800000, .f32⟩ : BufTy).Contents (Elt Ideal)) (x3 : (⟨S64x4, .f32⟩ : BufTy).Contents (Elt Ideal)) (x4 : (⟨S64, .f32⟩ : BufTy).Contents (Elt Ideal)) (x5 : (⟨S64x4, .f32⟩ : BufTy).Contents (Elt Ideal)) (x6 : (⟨S64x4, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64x64, .f32⟩ : BufTy).Contents (Elt Ideal)) (x12 : (⟨S64, .f32⟩ : BufTy).Contents (Elt Ideal)) (x13 : (⟨S256x128, .f32⟩ : BufTy).Contents (Elt Ideal)) (x14 : (⟨S256, .f32⟩ : BufTy).Contents (Elt Ideal)) (x15 : (⟨S4x256, .f32⟩ : BufTy).Contents (Elt Ideal)) (x16 : (⟨S4, .f32⟩ : BufTy).Contents (Elt Ideal))
    (ht1 : Cert.KernelIdeal.S256x128.Transposes [1, 0] Cert.KernelIdeal.S128x256)
    (ht2 : Cert.KernelIdeal.S4x256.Transposes [1, 0] Cert.KernelIdeal.S256x4)
    (hb : FTy.bf16.bits < FTy.f32.bits)
    (hs1 : Cert.KernelIdeal.S256.ShapeCasts Cert.KernelIdeal.S1x256) (hs2 : Cert.KernelIdeal.S4.ShapeCasts Cert.KernelIdeal.S1x4) :
    Cert.Spec.mlp
        (edgeRep
          (layerOut
            (Cert.Spec.lin
              (layerOut (Cert.Spec.lin x0 (stackT1 x3 x5 x6) (biasRow x4 x7)) (srcOf x1) (dstOf x1) x2)
              (stackT2 x8 x10 x11) (biasRow x9 x12))
            (srcOf x1) (dstOf x1) x2)
          (srcOf x1) (dstOf x1))
        (truncf (F := Ideal) .bf16 (transpose Cert.KernelIdeal.S128x256 [1, 0] x13 ht1) hb)
        (shapeCast Cert.KernelIdeal.S1x256 x14 hs1)
        (truncf (F := Ideal) .bf16 (transpose Cert.KernelIdeal.S256x4 [1, 0] x15 ht2) hb)
        (shapeCast Cert.KernelIdeal.S1x4 x16 hs2)
      = val_main_v97 (F := Ideal) x0 x1 x2 x3 x4 x5 x6 x7 x8 x9 x10 x11 x12 x13 x14 x15 x16 := by
  rw [layer1, layer2, ← ref_rep]
  show Cert.Spec.mlp (val_main_v86 (F := Ideal) x0 x1 x2 x3 x4 x5 x6 x7 x8 x9 x10 x11 x12) (val_main_v87 (F := Ideal) x13)
      (shapeCast Cert.KernelIdeal.S1x256 x14 hs1) (val_main_v93 (F := Ideal) x15) (shapeCast Cert.KernelIdeal.S1x4 x16 hs2) = _
  rw [percep]
  rfl

end Cert.Bridge

end
-- ==== Proof.lean ====
/-
  The certificate's five claims.

  Both printed kernel programs — at the word level and over the extended reals — run to their end without a fault
  and leave their argument arrays as launched: each launch's body reads its operand blocks and stores its result
  block, the pipeline carries the launch from the buffer contents at its entry to those at its exit, and no host
  operation or launch writes an argument.  The reference program is a straight line of host operations.  The
  idealization rewrote nothing.  Over the extended reals the kernel program's result array ends at one function
  of the arguments, and that function is the reference's: column band by column band the stacked products are the
  separate ones, the zero bias adds nothing, the last bias is added after instead of before the neighbourhood sum
  (addition is associative), and the closing perceptron is the same double sum.
-/
import proofs.«117817_j14499809592003_2_alg».proof.Defs
import proofs.«117817_j14499809592003_2_alg».proof.Proof.Gen.Kernel
import proofs.«117817_j14499809592003_2_alg».proof.Proof.Gen.KernelIdeal
import proofs.«117817_j14499809592003_2_alg».proof.Proof.Gen.ReferenceIdeal
import proofs.«117817_j14499809592003_2_alg».proof.Proof.Gen.Pre_finite_inputs
import proofs.«117817_j14499809592003_2_alg».proof.Proof.KFrame
import proofs.«117817_j14499809592003_2_alg».proof.Proof.KArgs
import proofs.«117817_j14499809592003_2_alg».proof.Proof.KIFrame
import proofs.«117817_j14499809592003_2_alg».proof.Proof.KIArgs
import proofs.«117817_j14499809592003_2_alg».proof.Proof.KIValue
import proofs.«117817_j14499809592003_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and keeps its arguments. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W6_main_arg0 m ρ c),
     (h c _ (Cert.Kernel.Fr.mem_uc Cert.Kernel.main_arg1 (by decide))).trans (Cert.Kernel.Fr.W6_main_arg1 m ρ c),
     (h c _ (Cert.Kernel.Fr.mem_uc Cert.Kernel.main_arg2 (by decide))).trans (Cert.Kernel.Fr.W6_main_arg2 m ρ c),
     (h c _ (Cert.Kernel.Fr.mem_uc Cert.Kernel.main_arg3 (by decide))).trans (Cert.Kernel.Fr.W6_main_arg3 m ρ c),
     (h c _ (Cert.Kernel.Fr.mem_uc Cert.Kernel.main_arg4 (by decide))).trans (Cert.Kernel.Fr.W6_main_arg4 m ρ c),
     (h c _ (Cert.Kernel.Fr.mem_uc Cert.Kernel.main_arg5 (by decide))).trans (Cert.Kernel.Fr.W6_main_arg5 m ρ c),
     (h c _ (Cert.Kernel.Fr.mem_uc Cert.Kernel.main_arg6 (by decide))).trans (Cert.Kernel.Fr.W6_main_arg6 m ρ c),
     (h c _ (Cert.Kernel.Fr.mem_uc Cert.Kernel.main_arg7 (by decide))).trans (Cert.Kernel.Fr.W6_main_arg7 m ρ c),
     (h c _ (Cert.Kernel.Fr.mem_uc Cert.Kernel.main_arg8 (by decide))).trans (Cert.Kernel.Fr.W6_main_arg8 m ρ c),
     (h c _ (Cert.Kernel.Fr.mem_uc Cert.Kernel.main_arg9 (by decide))).trans (Cert.Kernel.Fr.W6_main_arg9 m ρ c),
     (h c _ (Cert.Kernel.Fr.mem_uc Cert.Kernel.main_arg10 (by decide))).trans (Cert.Kernel.Fr.W6_main_arg10 m ρ c),
     (h c _ (Cert.Kernel.Fr.mem_uc Cert.Kernel.main_arg11 (by decide))).trans (Cert.Kernel.Fr.W6_main_arg11 m ρ c),
     (h c _ (Cert.Kernel.Fr.mem_uc Cert.Kernel.main_arg12 (by decide))).trans (Cert.Kernel.Fr.W6_main_arg12 m ρ c),
     (h c _ (Cert.Kernel.Fr.mem_uc Cert.Kernel.main_arg13 (by decide))).trans (Cert.Kernel.Fr.W6_main_arg13 m ρ c),
     (h c _ (Cert.Kernel.Fr.mem_uc Cert.Kernel.main_arg14 (by decide))).trans (Cert.Kernel.Fr.W6_main_arg14 m ρ c),
     (h c _ (Cert.Kernel.Fr.mem_uc Cert.Kernel.main_arg15 (by decide))).trans (Cert.Kernel.Fr.W6_main_arg15 m ρ c),
     (h c _ (Cert.Kernel.Fr.mem_uc Cert.Kernel.main_arg16 (by decide))).trans (Cert.Kernel.Fr.W6_main_arg16 m ρ c),
     (h c _ (Cert.Kernel.Fr.mem_uc Cert.Kernel.main_arg17 (by decide))).trans (Cert.Kernel.Fr.W6_main_arg17 m ρ c),
     (h c _ (Cert.Kernel.Fr.mem_uc Cert.Kernel.main_arg18 (by decide))).trans (Cert.Kernel.Fr.W6_main_arg18 m ρ c),
     (h c _ (Cert.Kernel.Fr.mem_uc Cert.Kernel.main_arg19 (by decide))).trans (Cert.Kernel.Fr.W6_main_arg19 m ρ c),
     (h c _ (Cert.Kernel.Fr.mem_uc Cert.Kernel.main_arg20 (by decide))).trans (Cert.Kernel.Fr.W6_main_arg20 m ρ c)⟩)
    (Cert.Kernel.Fr.run m ρ)

/-- The idealized kernel program runs and keeps its arguments. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W6_main_arg0 m ρ c),
     (h c _ (Cert.KernelIdeal.Fr.mem_uc Cert.KernelIdeal.main_arg1 (by decide))).trans (Cert.KernelIdeal.Fr.W6_main_arg1 m ρ c),
     (h c _ (Cert.KernelIdeal.Fr.mem_uc Cert.KernelIdeal.main_arg2 (by decide))).trans (Cert.KernelIdeal.Fr.W6_main_arg2 m ρ c),
     (h c _ (Cert.KernelIdeal.Fr.mem_uc Cert.KernelIdeal.main_arg3 (by decide))).trans (Cert.KernelIdeal.Fr.W6_main_arg3 m ρ c),
     (h c _ (Cert.KernelIdeal.Fr.mem_uc Cert.KernelIdeal.main_arg4 (by decide))).trans (Cert.KernelIdeal.Fr.W6_main_arg4 m ρ c),
     (h c _ (Cert.KernelIdeal.Fr.mem_uc Cert.KernelIdeal.main_arg5 (by decide))).trans (Cert.KernelIdeal.Fr.W6_main_arg5 m ρ c),
     (h c _ (Cert.KernelIdeal.Fr.mem_uc Cert.KernelIdeal.main_arg6 (by decide))).trans (Cert.KernelIdeal.Fr.W6_main_arg6 m ρ c),
     (h c _ (Cert.KernelIdeal.Fr.mem_uc Cert.KernelIdeal.main_arg7 (by decide))).trans (Cert.KernelIdeal.Fr.W6_main_arg7 m ρ c),
     (h c _ (Cert.KernelIdeal.Fr.mem_uc Cert.KernelIdeal.main_arg8 (by decide))).trans (Cert.KernelIdeal.Fr.W6_main_arg8 m ρ c),
     (h c _ (Cert.KernelIdeal.Fr.mem_uc Cert.KernelIdeal.main_arg9 (by decide))).trans (Cert.KernelIdeal.Fr.W6_main_arg9 m ρ c),
     (h c _ (Cert.KernelIdeal.Fr.mem_uc Cert.KernelIdeal.main_arg10 (by decide))).trans (Cert.KernelIdeal.Fr.W6_main_arg10 m ρ c),
     (h c _ (Cert.KernelIdeal.Fr.mem_uc Cert.KernelIdeal.main_arg11 (by decide))).trans (Cert.KernelIdeal.Fr.W6_main_arg11 m ρ c),
     (h c _ (Cert.KernelIdeal.Fr.mem_uc Cert.KernelIdeal.main_arg12 (by decide))).trans (Cert.KernelIdeal.Fr.W6_main_arg12 m ρ c),
     (h c _ (Cert.KernelIdeal.Fr.mem_uc Cert.KernelIdeal.main_arg13 (by decide))).trans (Cert.KernelIdeal.Fr.W6_main_arg13 m ρ c),
     (h c _ (Cert.KernelIdeal.Fr.mem_uc Cert.KernelIdeal.main_arg14 (by decide))).trans (Cert.KernelIdeal.Fr.W6_main_arg14 m ρ c),
     (h c _ (Cert.KernelIdeal.Fr.mem_uc Cert.KernelIdeal.main_arg15 (by decide))).trans (Cert.KernelIdeal.Fr.W6_main_arg15 m ρ c),
     (h c _ (Cert.KernelIdeal.Fr.mem_uc Cert.KernelIdeal.main_arg16 (by decide))).trans (Cert.KernelIdeal.Fr.W6_main_arg16 m ρ c),
     (h c _ (Cert.KernelIdeal.Fr.mem_uc Cert.KernelIdeal.main_arg17 (by decide))).trans (Cert.KernelIdeal.Fr.W6_main_arg17 m ρ c),
     (h c _ (Cert.KernelIdeal.Fr.mem_uc Cert.KernelIdeal.main_arg18 (by decide))).trans (Cert.KernelIdeal.Fr.W6_main_arg18 m ρ c),
     (h c _ (Cert.KernelIdeal.Fr.mem_uc Cert.KernelIdeal.main_arg19 (by decide))).trans (Cert.KernelIdeal.Fr.W6_main_arg19 m ρ c),
     (h c _ (Cert.KernelIdeal.Fr.mem_uc Cert.KernelIdeal.main_arg20 (by decide))).trans (Cert.KernelIdeal.Fr.W6_main_arg20 m ρ c)⟩)
    (Cert.KernelIdeal.Fr.run m ρ)

/-- The reference program runs and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals the two programs end with equal results. -/
theorem algebraic : Cert.algebraic_KernelIdeal_ReferenceIdeal := by
  intro m ρ m' ρ' _ hagree
  refine ⟨fun c => Cert.KernelIdeal.Val.out m c, ?_, ?_⟩
  · exact (θ_run Cert.KernelIdeal.defs _ _).mono (fun r h c =>
      ⟨(h c _ (Cert.KernelIdeal.Fr.mem_uc Cert.KernelIdeal.main_v88 (by decide))).trans (Cert.KernelIdeal.Val.result_eq m ρ c),
       (h c _ (Cert.KernelIdeal.Fr.mem_uc Cert.KernelIdeal.main_arg0 (by decide))).trans (Cert.KernelIdeal.Fr.W6_main_arg0 m ρ c),
       (h c _ (Cert.KernelIdeal.Fr.mem_uc Cert.KernelIdeal.main_arg1 (by decide))).trans (Cert.KernelIdeal.Fr.W6_main_arg1 m ρ c),
       (h c _ (Cert.KernelIdeal.Fr.mem_uc Cert.KernelIdeal.main_arg2 (by decide))).trans (Cert.KernelIdeal.Fr.W6_main_arg2 m ρ c),
       (h c _ (Cert.KernelIdeal.Fr.mem_uc Cert.KernelIdeal.main_arg3 (by decide))).trans (Cert.KernelIdeal.Fr.W6_main_arg3 m ρ c),
       (h c _ (Cert.KernelIdeal.Fr.mem_uc Cert.KernelIdeal.main_arg4 (by decide))).trans (Cert.KernelIdeal.Fr.W6_main_arg4 m ρ c),
       (h c _ (Cert.KernelIdeal.Fr.mem_uc Cert.KernelIdeal.main_arg5 (by decide))).trans (Cert.KernelIdeal.Fr.W6_main_arg5 m ρ c),
       (h c _ (Cert.KernelIdeal.Fr.mem_uc Cert.KernelIdeal.main_arg6 (by decide))).trans (Cert.KernelIdeal.Fr.W6_main_arg6 m ρ c),
       (h c _ (Cert.KernelIdeal.Fr.mem_uc Cert.KernelIdeal.main_arg7 (by decide))).trans (Cert.KernelIdeal.Fr.W6_main_arg7 m ρ c),
       (h c _ (Cert.KernelIdeal.Fr.mem_uc Cert.KernelIdeal.main_arg8 (by decide))).trans (Cert.KernelIdeal.Fr.W6_main_arg8 m ρ c),
       (h c _ (Cert.KernelIdeal.Fr.mem_uc Cert.KernelIdeal.main_arg9 (by decide))).trans (Cert.KernelIdeal.Fr.W6_main_arg9 m ρ c),
       (h c _ (Cert.KernelIdeal.Fr.mem_uc Cert.KernelIdeal.main_arg10 (by decide))).trans (Cert.KernelIdeal.Fr.W6_main_arg10 m ρ c),
       (h c _ (Cert.KernelIdeal.Fr.mem_uc Cert.KernelIdeal.main_arg11 (by decide))).trans (Cert.KernelIdeal.Fr.W6_main_arg11 m ρ c),
       (h c _ (Cert.KernelIdeal.Fr.mem_uc Cert.KernelIdeal.main_arg12 (by decide))).trans (Cert.KernelIdeal.Fr.W6_main_arg12 m ρ c),
       (h c _ (Cert.KernelIdeal.Fr.mem_uc Cert.KernelIdeal.main_arg13 (by decide))).trans (Cert.KernelIdeal.Fr.W6_main_arg13 m ρ c),
       (h c _ (Cert.KernelIdeal.Fr.mem_uc Cert.KernelIdeal.main_arg14 (by decide))).trans (Cert.KernelIdeal.Fr.W6_main_arg14 m ρ c),
       (h c _ (Cert.KernelIdeal.Fr.mem_uc Cert.KernelIdeal.main_arg15 (by decide))).trans (Cert.KernelIdeal.Fr.W6_main_arg15 m ρ c),
       (h c _ (Cert.KernelIdeal.Fr.mem_uc Cert.KernelIdeal.main_arg16 (by decide))).trans (Cert.KernelIdeal.Fr.W6_main_arg16 m ρ c),
       (h c _ (Cert.KernelIdeal.Fr.mem_uc Cert.KernelIdeal.main_arg17 (by decide))).trans (Cert.KernelIdeal.Fr.W6_main_arg17 m ρ c),
       (h c _ (Cert.KernelIdeal.Fr.mem_uc Cert.KernelIdeal.main_arg18 (by decide))).trans (Cert.KernelIdeal.Fr.W6_main_arg18 m ρ c),
       (h c _ (Cert.KernelIdeal.Fr.mem_uc Cert.KernelIdeal.main_arg19 (by decide))).trans (Cert.KernelIdeal.Fr.W6_main_arg19 m ρ c),
       (h c _ (Cert.KernelIdeal.Fr.mem_uc Cert.KernelIdeal.main_arg20 (by decide))).trans (Cert.KernelIdeal.Fr.W6_main_arg20 m ρ c)⟩)
      (Cert.KernelIdeal.Fr.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v97_eq]
    obtain ⟨e0, e1, e2, e3, e4, e5, e6, e7, e8, e9, e10, e11, e12, e13, e14, e15, e16, e17, e18, e19, e20⟩ := hagree c
    rw [e0, e1, e2, e3, e4, e5, e6, e7, e8, e9, e10, e11, e12, e13, e14, e15, e16]
    exact (Cert.Bridge.final _ _ _ _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
